-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S4000x1 : Shape := ⟨2, ![4000, 1]⟩
abbrev S100000x64 : Shape := ⟨2, ![100000, 64]⟩
abbrev S4000x64 : Shape := ⟨2, ![4000, 64]⟩
abbrev S1600000x64 : Shape := ⟨2, ![1600000, 64]⟩
abbrev S1x64 : Shape := ⟨2, ![1, 64]⟩

abbrev nBuf : Space → Nat
  | .hbm => 51
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S1x64, .f32⟩
  | .hbm, ⟨50, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x1, .f32⟩
  | .local _ .vmem, ⟨20, _⟩ => ⟨S4000x1, .f32⟩
  | .local _ .vmem, ⟨21, _⟩ => ⟨S1x64, .f32⟩
  | .local _ .vmem, ⟨22, _⟩ => ⟨S4000x64, .f32⟩
  | .local _ .vmem, ⟨23, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  broadcasts_S4000x1_S4000x64 : S4000x1.Broadcasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .f32 = 32 ∨ (Rect.block (s := S100000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S100000x64.size a
  hwx2_4 : ∀ i : grid2.Coords, EltTy.bits .f32 = 32 ∨ (Rect.block (s := S100000x64) S4000x64.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v18) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v31) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v32) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S4000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S100000x128, .f32⟩
  | .hbm, ⟨27, _⟩ => ⟨S100000x1, .f32⟩
  | .hbm, ⟨28, _⟩ => ⟨S_, .f32⟩
  | .hbm, ⟨29, _⟩ => ⟨S100000x1, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S_, .f32⟩
  | .hbm, ⟨54, _⟩ => ⟨S1600000, .f32⟩
  | .hbm, ⟨55, _⟩ => ⟨S_, .f32⟩
  | .hbm, ⟨56, _⟩ => ⟨S100000, .f32⟩
  | .hbm, ⟨57, _⟩ => ⟨S1600000x1, .i32⟩
  | .hbm, ⟨58, _⟩ => ⟨S100000, .f32⟩
  | .hbm, ⟨59, _⟩ => ⟨S100000x128, .f32⟩
  | .hbm, ⟨60, _⟩ => ⟨S100000x1, .f32⟩
  | .hbm, ⟨61, _⟩ => ⟨S_, .f32⟩
  | .hbm, ⟨62, _⟩ => ⟨S100000x1, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's whole run, with its result array named. The program is three grid launches among two
  stretches of host operations; its buffers at each boundary are a fold from the launch memory, and after the
  last launch every unscoped buffer holds that fold's value. Read here at the result buffer as well as at the
  seven argument buffers.
-/
import proofs.«102022_j7086696038727_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the value
    the fold of the five segments gives it, and the seven arguments are as launched. -/
theorem run_main : θ_run defs (onTc (τ := τ) (main (F := F))) ⟨m, fun _ => 0, ρ⟩ (fun r => ∀ c : Dev nD,
      r.2.mem ((c.tc : Thread nD τ).loc main_v33) = W5 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v33 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

/-- The result buffer is the third launch's output window's array. -/
theorem W5_result (c : Dev nD) : W5 m ρ c (Proc.devRef .tc main_v33) = (dat2 (V4 m ρ) c).arrAt 4 cfg2.N :=
  W5_arr m ρ c 4

end Cert.KernelIdeal.KRun

end
-- ==== Proof.FiniteInputs.lean ====
/-
  The precondition `finite_inputs` read back. The printed predicate is the conjunction, over the five float
  arguments, of `jnp.all(|x| < +∞)`: each an all-axes reduce by `and` of the elementwise comparison of `|x|` against the
  broadcast f32 word 0x7F800000 (+∞). At the ideal instance a float is an extended real, `|x|` is `max x (-x)`, +∞ is `⊤`,
  and an extended real with `max x (-x) < ⊤` is neither `⊥` nor `⊤`: it is a real number.
-/
import proofs.«102022_j7086696038727_2_alg».proof.Pre_finite_inputs
import Idealize.ShloMosaic.PureOps.Ideal
import Idealize.ShloMosaic.Lib.ValueIdx
import Idealize.ShloMosaic.Lib.ReduceAll

noncomputable section

namespace Cert.FiniteInputs

open Idealize.ShloMosaic

/-- The rank-0 shape has exactly one index. -/
instance subsingleton_S_ : Subsingleton Cert.Pre_finite_inputs.S_.Idx := ⟨fun a b => funext fun d => d.elim0⟩

/-- An extended real whose absolute value `max x (-x)` lies strictly below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The f32 word 0x7F800000 denotes `+∞`, the top extended real. -/
theorem inf_word_eq_top : Ideal.ofBits .f32 0x7F800000#32 = (⊤ : EReal) := by simp [Ideal.ofBits, Ideal.ieee]

/-- A one-bit word built from a Boolean is 1 exactly when the Boolean is true. -/
theorem ofBool_eq_one (b : Bool) : BitVec.ofBool b = 1#1 ↔ b = true := by cases b <;> decide

/-- If the conjunction over all entries of `|x i| < +∞` is true, then every entry of `x` is a real number. -/
theorem reals_of_all {s c t u : Shape} [Subsingleton t.Idx] {axes : List (Fin s.rank)} (x : FVec Ideal s .f32)
    (dims : Fin c.rank → Fin s.rank) (hb : c.BroadcastsInDim s dims) (hr : s.ReducesTo axes t) (hu : 0 < u.numel)
    (init : IVec u 1) (j : t.Idx)
    (e : Host.reduce IntOp.andi
          (cmpf .olt (Host.absf x) (broadcastInDim s dims hb (constant c .f32 0x7F800000#32))) init hr hu j = 1#1) :
    ∀ i, ∃ r : ℝ, x i = (r : EReal) := by
  intro i
  have h1 := Host.reduce_andi_all _ init hr hu j e i
  change Ideal.cmp .olt (max (x i) (-(x i))) (Ideal.ofBits .f32 0x7F800000#32) = 1#1 at h1
  rw [inf_word_eq_top] at h1
  unfold Ideal.cmp at h1
  rw [ofBool_eq_one] at h1
  exact real_of_abs_lt_top (x i) (of_decide_eq_true h1)

/-- Under the precondition `finite_inputs`, every entry of each of the five float arguments is a real number. -/
theorem reals_of_pre [Cert.Pre_finite_inputs.Facts]
    (a0 : FVec Ideal Cert.Pre_finite_inputs.S100000x128 .f32) (a1 a2 : IVec Cert.Pre_finite_inputs.S1600000 32)
    (a3 : FVec Ideal Cert.Pre_finite_inputs.S128x128 .f32) (a4 : FVec Ideal Cert.Pre_finite_inputs.S128 .f32)
    (a5 : FVec Ideal Cert.Pre_finite_inputs.S128x64 .f32) (a6 : FVec Ideal Cert.Pre_finite_inputs.S64 .f32)
    (h : Cert.Pre_finite_inputs.fn (F := Ideal) a0 a1 a2 a3 a4 a5 a6 = (fun _ => 1#1)) :
    (∀ i, ∃ r : ℝ, a0 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) := by
  have h0 := congrFun h ValueIdx.ix0
  dsimp only [Cert.Pre_finite_inputs.fn, Cert.Pre_finite_inputs.fn_part1] at h0
  -- the result is a four-fold `and` of the five all-reductions: split it
  change IntOp.andi (IntOp.andi (IntOp.andi (IntOp.andi _ _) _) _) _ = 1#1 at h0
  obtain ⟨h0123, e6⟩ := IntOp.andi_eq_one.1 h0
  obtain ⟨h012, e5⟩ := IntOp.andi_eq_one.1 h0123
  obtain ⟨h01, e4⟩ := IntOp.andi_eq_one.1 h012
  obtain ⟨e0, e3⟩ := IntOp.andi_eq_one.1 h01
  exact ⟨reals_of_all a0 _ _ _ _ _ _ e0, reals_of_all a3 _ _ _ _ _ _ e3, reals_of_all a4 _ _ _ _ _ _ e4,
    reals_of_all a5 _ _ _ _ _ _ e5, reals_of_all a6 _ _ _ _ _ _ e6⟩

end Cert.FiniteInputs

end
-- ==== Proof.LibRowGatherScatter.lean ====
/-
  Row gather and row scatter-add, read at an index.

  What \`x[idx]\` of a matrix \`x : [N, C]\` at an integer vector \`idx : [E]\` (carried as \`[E, 1]\`) lowers to is a
  \`stablehlo.gather\` of whole rows: result element \`(e, k)\` is \`x\` at row \`idx[e]\` (read signed, clamped into
  \`[0, N − 1]\`) and column \`k\`. What a segment sum of rows \`upd : [E, C]\` into \`[N, C]\` lowers to is a
  \`stablehlo.scatter\` with an \`add\` body: operand element \`(n, k)\` receives every \`upd (e, k)\` whose index \`idx[e]\`,
  read signed and not clamped, is exactly \`n\`.
-/
import Idealize.ShloMosaic.Lib.ValueIdx
import Idealize.ShloMosaic.PureOps.Ideal

noncomputable section

open scoped BigOperators

namespace Cert.RowOps

open Idealize.ShloMosaic Idealize.ShloMosaic.ValueIdx

/-! ## The row gather -/

/-- The dimension numbers of a row gather: operand \`[N, C]\`, start indices \`[E, 1]\`, result \`[E, C]\`; offset axis
    \`1\`, collapsed operand axis \`0\`, the start index naming operand axis \`0\`, slices of one whole row. Their
    conditions \`wf\` are decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row the gather reads for edge \`e\`: the start index read signed and clamped into \`[0, N − 1]\`. -/
def gatherRow {N E w : Nat} (hN : 0 < N) (idx : IVec ⟨2, ![E, 1]⟩ w) (e : Fin E) : Fin N :=
  ⟨min (idx (ix2 e 0)).toInt.toNat (N - 1), by omega⟩

/-- The row gather at \`(e, k)\` is the operand at row \`gatherRow e\` (the clamped start index) and column \`k\`. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k) = x (ix2 (gatherRow hN idx e) k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hst : (rowGatherDims N E C wf).start (ix2 e k) idx 1 = 0 := by
      unfold GatherDims.start
      rw [dif_neg (fun h => absurd (List.mem_singleton.mp h) (show (1 : Fin 2) ≠ 0 by decide))]
    rw [hst]
    simp only [Nat.add_zero, Nat.zero_add]
    unfold GatherDims.offCoord
    rw [dif_pos ((GatherDims.mem_sKept _ _).mpr
      ⟨fun h => absurd (List.mem_singleton.mp h) (show (1 : Fin 2) ≠ 0 by decide), List.not_mem_nil⟩)]
    rfl

/-! ## The row scatter-add -/

/-- The dimension numbers of a row scatter: operand \`[N, C]\`, scatter indices \`[E, 1]\`, updates \`[E, C]\`; update
    window axis \`1\`, inserted operand axis \`0\`, the scatter index naming operand axis \`0\`. Their conditions \`wf\` are
    decided on a program's literal shapes. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)

/-- The operand axes the update windows go to are the ones that are not inserted. -/
theorem rowScatter_mem_sKept (a : Fin 2) :
    a ∈ (rowScatterDims N E C wf).sKept ↔ a ∉ (rowScatterDims N E C wf).insertedWindowDims := by
  simp [ScatterDims.sKept, Shape.kept, List.mem_filter, List.mem_finRange]

/-- On the row axis the window of update \`(e, k)\` starts at the scatter index \`idx[e]\`, read signed. -/
theorem rowScatter_start0 (idx : IVec ⟨2, ![E, 1]⟩ w) (e : Fin E) (k : Fin C) :
    (rowScatterDims N E C wf).start (ix2 e k) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e k)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at \`0\`: the scatter index names the row axis only. -/
theorem rowScatter_start1 (idx : IVec ⟨2, ![E, 1]⟩ w) (e : Fin E) (k : Fin C) :
    (rowScatterDims N E C wf).start (ix2 e k) idx 1 = 0 := by
  unfold ScatterDims.start
  rw [dif_neg (fun h => absurd (List.mem_singleton.mp h) (show (1 : Fin 2) ≠ 0 by decide))]

/-- The row axis is an inserted one: the window coordinate there is \`0\`. -/
theorem rowScatter_window0 (e : Fin E) (k : Fin C) : (rowScatterDims N E C wf).window (ix2 e k) 0 = 0 := by
  unfold ScatterDims.window
  rw [dif_neg (fun h => ((rowScatter_mem_sKept wf 0).mp h) (List.mem_singleton.mpr rfl))]

/-- On the column axis the window coordinate of update \`(e, k)\` is \`k\`. -/
theorem rowScatter_window1 (e : Fin E) (k : Fin C) : (rowScatterDims N E C wf).window (ix2 e k) 1 = k.val := by
  unfold ScatterDims.window
  rw [dif_pos ((rowScatter_mem_sKept wf 1).mpr
    (fun h => absurd (List.mem_singleton.mp h) (show (1 : Fin 2) ≠ 0 by decide)))]
  rfl

end Scatter

/-- Update \`(e, k)\` lands on operand element \`(n, k')\` exactly when the columns agree and the scatter index \`idx[e]\`,
    read signed, is the row \`n\`. -/
theorem rowScatter_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (k : Fin C) (n : Fin N) (k' : Fin C) :
    (rowScatterDims N E C wf).resultIdx? (ix2 e k) idx = some (ix2 n k')
      ↔ (k = k' ∧ (idx (ix2 e 0)).toInt = (n.val : Int)) := by
  have hk := k.isLt
  have hn := n.isLt
  unfold ScatterDims.resultIdx?
  constructor
  · intro h
    by_cases hall : ∀ a, 0 ≤ (rowScatterDims N E C wf).start (ix2 e k) idx a + (rowScatterDims N E C wf).window (ix2 e k) a
        ∧ (rowScatterDims N E C wf).start (ix2 e k) idx a + (rowScatterDims N E C wf).window (ix2 e k) a
          < (⟨2, ![N, C]⟩ : Shape).size a
    · rw [dif_pos hall] at h
      have heq := Option.some.inj h
      have h0 : ((rowScatterDims N E C wf).start (ix2 e k) idx 0 + (rowScatterDims N E C wf).window (ix2 e k) 0).toNat
          = n.val := congrArg (fun f => (f 0).val) heq
      have h1 : ((rowScatterDims N E C wf).start (ix2 e k) idx 1 + (rowScatterDims N E C wf).window (ix2 e k) 1).toNat
          = k'.val := congrArg (fun f => (f 1).val) heq
      have b0 := (hall 0).1
      rw [rowScatter_start0, rowScatter_window0] at h0 b0
      rw [rowScatter_start1, rowScatter_window1] at h1
      refine ⟨Fin.ext ?_, ?_⟩
      · omega
      · omega
    · rw [dif_neg hall] at h
      exact absurd h (by simp)
  · rintro ⟨rfl, hi⟩
    have hall : ∀ a, 0 ≤ (rowScatterDims N E C wf).start (ix2 e k) idx a + (rowScatterDims N E C wf).window (ix2 e k) a
        ∧ (rowScatterDims N E C wf).start (ix2 e k) idx a + (rowScatterDims N E C wf).window (ix2 e k) a
          < (⟨2, ![N, C]⟩ : Shape).size a := by
      intro a
      match a with
      | ⟨0, _⟩ =>
        show 0 ≤ (rowScatterDims N E C wf).start (ix2 e k) idx 0 + (rowScatterDims N E C wf).window (ix2 e k) 0
          ∧ (rowScatterDims N E C wf).start (ix2 e k) idx 0 + (rowScatterDims N E C wf).window (ix2 e k) 0 < (N : Int)
        rw [rowScatter_start0, rowScatter_window0, hi]
        omega
      | ⟨1, _⟩ =>
        show 0 ≤ (rowScatterDims N E C wf).start (ix2 e k) idx 1 + (rowScatterDims N E C wf).window (ix2 e k) 1
          ∧ (rowScatterDims N E C wf).start (ix2 e k) idx 1 + (rowScatterDims N E C wf).window (ix2 e k) 1 < (C : Int)
        rw [rowScatter_start1, rowScatter_window1]
        omega
    rw [dif_pos hall]
    congr 1
    funext a
    refine Fin.ext ?_
    match a with
    | ⟨0, _⟩ =>
      show ((rowScatterDims N E C wf).start (ix2 e k) idx 0 + (rowScatterDims N E C wf).window (ix2 e k) 0).toNat = n.val
      rw [rowScatter_start0, rowScatter_window0, hi]
      omega
    | ⟨1, _⟩ =>
      show ((rowScatterDims N E C wf).start (ix2 e k) idx 1 + (rowScatterDims N E C wf).window (ix2 e k) 1).toNat = k.val
      rw [rowScatter_start1, rowScatter_window1]
      omega

/-- THE ROW SCATTER-ADD AT \`(n, k)\`: the operand element plus the sum of the update elements \`upd (e, k)\` over the
    edges \`e\` whose scatter index \`idx[e]\`, read signed and not clamped, is the row \`n\`. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowScatterDims N E C wf) x idx upd (ix2 n k)
      = x (ix2 n k)
        + ∑ e ∈ Finset.univ.filter (fun e : Fin E => (idx (ix2 e 0)).toInt = (n.val : Int)), upd (ix2 e k) := by
  unfold Ideal.hostScatterAdd
  congr 1
  -- the update indices that land on \`(n, k)\` are the \`(e, k)\` with \`idx[e] = n\`: re-index by the edge coordinate
  refine Finset.sum_nbij' (fun j => (j 0 : Fin E)) (fun e => ix2 e k) ?_ ?_ ?_ ?_ ?_
  · intro j hj
    obtain ⟨a, b, rfl⟩ : ∃ (a : Fin E) (b : Fin C), j = ix2 a b := ⟨j 0, j 1, eq_ix2 j⟩
    have h := (rowScatter_resultIdx_iff wf idx a b n k).mp (Finset.mem_filter.mp hj).2
    exact Finset.mem_filter.mpr ⟨Finset.mem_univ _, h.2⟩
  · intro e he
    exact Finset.mem_filter.mpr ⟨Finset.mem_univ _,
      (rowScatter_resultIdx_iff wf idx e k n k).mpr ⟨rfl, (Finset.mem_filter.mp he).2⟩⟩
  · intro j hj
    obtain ⟨a, b, rfl⟩ : ∃ (a : Fin E) (b : Fin C), j = ix2 a b := ⟨j 0, j 1, eq_ix2 j⟩
    have h := (rowScatter_resultIdx_iff wf idx a b n k).mp (Finset.mem_filter.mp hj).2
    show ix2 a k = ix2 a b
    rw [h.1]
  · intro e _
    rfl
  · intro j hj
    obtain ⟨a, b, rfl⟩ : ∃ (a : Fin E) (b : Fin C), j = ix2 a b := ⟨j 0, j 1, eq_ix2 j⟩
    have h := (rowScatter_resultIdx_iff wf idx a b n k).mp (Finset.mem_filter.mp hj).2
    show upd (ix2 a b) = upd (ix2 a k)
    rw [h.1]

end Cert.RowOps

end
-- ==== Proof.Spec.lean ====
/-
  The two-layer neighbourhood-mean network, entry by entry, in the two arrangements the certificate compares.
  A graph of 1,600,000 edges over 100,000 nodes: edge e sends the row of its source node to its destination node.
  `edges didx n` are the edges whose destination index is n (an index outside the node range reaches no node);
  `srcRow sidx e` is the row edge e reads (its source index clamped into the node range). `aggr` sums, for node n and
  column k, the rows the edges into n read. With dp n the number of edges into n plus one:
  one arrangement (R) divides (aggr h + h) by dp and then multiplies by the weights, in both layers;
  the other (K) multiplies by the reciprocal 1/dp in the first layer, and in the second layer multiplies the hidden
  rows by the weights FIRST and aggregates the 64-wide products, scaling by 1/dp afterwards.
-/
import proofs.«102022_j7086696038727_2_alg».proof.Proof.LibRowGatherScatter
import Idealize.ShloMosaic.PureOps.Ideal
import Idealize.ShloMosaic.Lib.ValueIdx

noncomputable section

namespace Cert.Sage

open Idealize.ShloMosaic Idealize.ShloMosaic.ValueIdx Cert.RowOps

/-- The edges whose destination index, read signed, is node `n`. -/
def edges (didx : IVec ⟨2, ![1600000, 1]⟩ 32) (n : Fin 100000) : Finset (Fin 1600000) :=
  Finset.univ.filter (fun e : Fin 1600000 => (didx (ix2 e 0)).toInt = (n.val : Int))

/-- The node row edge `e` reads: its source index, read signed and clamped into the node range. -/
def srcRow (sidx : IVec ⟨2, ![1600000, 1]⟩ 32) (e : Fin 1600000) : Fin 100000 :=
  gatherRow (N := 100000) (by decide) sidx e

/-- The aggregate at node `n`, column `k`: zero plus the sum, over the edges into `n`, of the source rows' entries. -/
def aggr {C : Nat} (sidx didx : IVec ⟨2, ![1600000, 1]⟩ 32) (h : Fin 100000 → Fin C → EReal) (n : Fin 100000) (k : Fin C) : EReal :=
  0 + ∑ e ∈ edges didx n, h (srcRow sidx e) k

/-- The hidden layer, multiplying by the reciprocal of `dp`. -/
def hidK (sidx didx : IVec ⟨2, ![1600000, 1]⟩ 32) (x : Fin 100000 → Fin 128 → EReal) (W1 : Fin 128 → Fin 128 → EReal)
    (b1 : Fin 128 → EReal) (dp : Fin 100000 → EReal) (n : Fin 100000) (k : Fin 128) : EReal :=
  max ((∑ i : Fin 128, ((aggr sidx didx x n i + x n i) * Ideal.div 1 (dp n)) * W1 i k) + b1 k) 0

/-- The hidden layer, dividing by `dp`. -/
def hidR (sidx didx : IVec ⟨2, ![1600000, 1]⟩ 32) (x : Fin 100000 → Fin 128 → EReal) (W1 : Fin 128 → Fin 128 → EReal)
    (b1 : Fin 128 → EReal) (dp : Fin 100000 → EReal) (n : Fin 100000) (k : Fin 128) : EReal :=
  max ((∑ i : Fin 128, Ideal.div (aggr sidx didx x n i + x n i) (dp n) * W1 i k) + b1 k) 0

/-- The hidden rows projected to 64 columns. -/
def proj (h : Fin 100000 → Fin 128 → EReal) (W2 : Fin 128 → Fin 64 → EReal) (n : Fin 100000) (j : Fin 64) : EReal :=
  ∑ k : Fin 128, h n k * W2 k j

/-- The output, projecting first and aggregating the 64-wide rows, scaled by the reciprocal of `dp`. -/
def outK (sidx didx : IVec ⟨2, ![1600000, 1]⟩ 32) (x : Fin 100000 → Fin 128 → EReal) (W1 : Fin 128 → Fin 128 → EReal)
    (b1 : Fin 128 → EReal) (W2 : Fin 128 → Fin 64 → EReal) (b2 : Fin 64 → EReal) (dp : Fin 100000 → EReal)
    (n : Fin 100000) (j : Fin 64) : EReal :=
  (aggr sidx didx (proj (hidK sidx didx x W1 b1 dp) W2) n j + proj (hidK sidx didx x W1 b1 dp) W2 n j) * Ideal.div 1 (dp n) + b2 j

/-- The output, aggregating the 128-wide hidden rows, dividing by `dp`, and projecting last. -/
def outR (sidx didx : IVec ⟨2, ![1600000, 1]⟩ 32) (x : Fin 100000 → Fin 128 → EReal) (W1 : Fin 128 → Fin 128 → EReal)
    (b1 : Fin 128 → EReal) (W2 : Fin 128 → Fin 64 → EReal) (b2 : Fin 64 → EReal) (dp : Fin 100000 → EReal)
    (n : Fin 100000) (j : Fin 64) : EReal :=
  (∑ k : Fin 128, Ideal.div (aggr sidx didx (hidR sidx didx x W1 b1 dp) n k + hidR sidx didx x W1 b1 dp n k) (dp n) * W2 k j) + b2 j

end Cert.Sage

end
-- ==== Proof.LibRealSums.lean ====
/-
  General lemmas on extended reals that are real numbers. `IsR a` says the extended real `a` is (the coercion of) a real
  number; real numbers are closed under sums, products, maxima and finite sums, and on them the extended reals' arithmetic
  is the reals'. Consequences: a count of ones is a natural number, division by a nonzero real is multiplication by its
  reciprocal, and a finite aggregation (a sum over a finite set plus one more term, scaled by a constant) commutes with a
  linear projection `x ↦ ∑ k, x k * W k`.
-/
import Idealize.ShloMosaic.PureOps.Ideal

noncomputable section

namespace Cert.RealSums

open Idealize.ShloMosaic
open scoped BigOperators

/-- An extended real is real when it is the coercion of a real number (it is neither `⊥` nor `⊤`). -/
def IsR (a : EReal) : Prop := ∃ r : ℝ, a = (r : EReal)

/-- The coercion of a real number is real. -/
theorem IsR.coe (r : ℝ) : IsR (r : EReal) := ⟨r, rfl⟩

/-- Zero is real. -/
theorem IsR.zero : IsR 0 := ⟨0, rfl⟩

/-- One is real. -/
theorem IsR.one : IsR 1 := ⟨1, rfl⟩

/-- The sum of two reals is real. -/
theorem IsR.add {a b : EReal} (ha : IsR a) (hb : IsR b) : IsR (a + b) := by
  obtain ⟨x, rfl⟩ := ha
  obtain ⟨y, rfl⟩ := hb
  exact ⟨x + y, (EReal.coe_add x y).symm⟩

/-- The product of two reals is real. -/
theorem IsR.mul {a b : EReal} (ha : IsR a) (hb : IsR b) : IsR (a * b) := by
  obtain ⟨x, rfl⟩ := ha
  obtain ⟨y, rfl⟩ := hb
  exact ⟨x * y, (EReal.coe_mul x y).symm⟩

/-- The maximum of two reals is real. -/
theorem IsR.max {a b : EReal} (ha : IsR a) (hb : IsR b) : IsR (Max.max a b) := by
  obtain ⟨x, rfl⟩ := ha
  obtain ⟨y, rfl⟩ := hb
  rcases le_total x y with h | h
  · exact ⟨y, max_eq_right (EReal.coe_le_coe_iff.2 h)⟩
  · exact ⟨x, max_eq_left (EReal.coe_le_coe_iff.2 h)⟩

/-- A finite sum of reals is real. -/
theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

/-- The coercion from the reals to the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of ones over a finite set is the set's cardinality. -/
theorem sum_one_eq_card {ι : Type*} (s : Finset ι) : (∑ _i ∈ s, (1 : EReal)) = ((s.card : ℝ) : EReal) := by
  rw [Finset.sum_const, nsmul_one, EReal.coe_coe_eq_natCast]

/-- One more than a count of ones, started at zero, is a positive real number. -/
theorem count_add_one_pos {ι : Type*} (s : Finset ι) :
    ∃ d : ℝ, 0 < d ∧ ((0 : EReal) + ∑ _i ∈ s, (1 : EReal)) + 1 = (d : EReal) := by
  refine ⟨(s.card : ℝ) + 1, by positivity, ?_⟩
  rw [sum_one_eq_card, zero_add, EReal.coe_add, EReal.coe_one]

/-- Multiplying by the quotient `1 / d` of a nonzero real `d` is dividing by `d`. -/
theorem mul_div_one {d : ℝ} (hd : d ≠ 0) (a : EReal) : a * Ideal.div 1 (d : EReal) = Ideal.div a (d : EReal) := by
  rw [Ideal.div_coe hd, Ideal.div_coe hd, one_mul]

/-- The quotient of one by a nonzero real `d` is the real number `1 / d`. -/
theorem div_one_isR {d : ℝ} (hd : d ≠ 0) : Ideal.div 1 (d : EReal) = ((1 / d : ℝ) : EReal) := by
  rw [Ideal.div_coe hd, one_mul]

/-- Aggregation commutes with a linear projection: summing the projections `∑ k, x k * W k` of finitely many real rows,
    adding one more row's projection and scaling by a real constant `c` gives the projection of the row that sums the rows
    coordinatewise, adds the extra row and scales by `c`. -/
theorem aggregate_project {ε : Type*} (P : Finset ε) {K : ℕ} (hrow : ε → Fin K → EReal) (hn : Fin K → EReal)
    (W : Fin K → EReal) (c : EReal) (hh : ∀ e k, IsR (hrow e k)) (hhn : ∀ k, IsR (hn k)) (hW : ∀ k, IsR (W k))
    (hc : IsR c) :
    ((0 + ∑ e ∈ P, ∑ k, hrow e k * W k) + ∑ k, hn k * W k) * c
      = ∑ k, (((0 + ∑ e ∈ P, hrow e k) + hn k) * c) * W k := by
  have hh' : ∀ e k, ∃ r : ℝ, hrow e k = (r : EReal) := hh
  have hhn' : ∀ k, ∃ r : ℝ, hn k = (r : EReal) := hhn
  have hW' : ∀ k, ∃ r : ℝ, W k = (r : EReal) := hW
  choose H hH using hh'
  choose N hN using hhn'
  choose V hV using hW'
  obtain ⟨C, rfl⟩ := hc
  -- everything is the coercion of a real expression
  simp only [hH, hN, hV, zero_add, ← EReal.coe_mul, ← coe_sum, ← EReal.coe_add]
  -- the identity in the reals: exchange the two sums, then distribute
  congr 1
  rw [Finset.sum_comm, ← Finset.sum_add_distrib, Finset.sum_mul]
  refine Finset.sum_congr rfl fun k _ => ?_
  rw [← Finset.sum_mul]
  ring

end Cert.RealSums

end
-- ==== Proof.Bridge.lean ====
/-
  The two arrangements of the network agree on real inputs. With every input entry a real number and every `dp n` a
  positive real: dividing by `dp n` is multiplying by its reciprocal, so the two hidden layers are equal entry by entry and
  every hidden entry is real; and in the second layer, aggregating the 128-wide hidden rows, scaling and then projecting to
  64 columns equals projecting every row first, aggregating the 64-wide projections and scaling afterwards, because a
  finite aggregation commutes with a linear projection over the reals.
-/
import proofs.«102022_j7086696038727_2_alg».proof.Proof.Spec
import proofs.«102022_j7086696038727_2_alg».proof.Proof.LibRealSums

noncomputable section

namespace Cert.Sage

open Idealize.ShloMosaic Cert.RealSums

/-- With `dp n` a positive real, the hidden layer that divides by `dp` equals the one that multiplies by `1 / dp`. -/
theorem hidR_eq_hidK (sidx didx : IVec ⟨2, ![1600000, 1]⟩ 32) (x : Fin 100000 → Fin 128 → EReal)
    (W1 : Fin 128 → Fin 128 → EReal) (b1 : Fin 128 → EReal) (dp : Fin 100000 → EReal)
    (hdp : ∀ n, ∃ d : ℝ, 0 < d ∧ dp n = (d : EReal)) (n : Fin 100000) (k : Fin 128) :
    hidR sidx didx x W1 b1 dp n k = hidK sidx didx x W1 b1 dp n k := by
  obtain ⟨d, hd, e⟩ := hdp n
  unfold hidR hidK
  rw [e]
  simp only [mul_div_one (ne_of_gt hd)]

/-- On real inputs, with `dp n` a positive real, every entry of the hidden layer is a real number. -/
theorem hidK_isR (sidx didx : IVec ⟨2, ![1600000, 1]⟩ 32) (x : Fin 100000 → Fin 128 → EReal)
    (W1 : Fin 128 → Fin 128 → EReal) (b1 : Fin 128 → EReal) (dp : Fin 100000 → EReal)
    (hx : ∀ n i, IsR (x n i)) (hW1 : ∀ i k, IsR (W1 i k)) (hb1 : ∀ k, IsR (b1 k))
    (hdp : ∀ n, ∃ d : ℝ, 0 < d ∧ dp n = (d : EReal)) (n : Fin 100000) (k : Fin 128) :
    IsR (hidK sidx didx x W1 b1 dp n k) := by
  obtain ⟨d, hd, e⟩ := hdp n
  unfold hidK aggr
  rw [e, div_one_isR (ne_of_gt hd)]
  refine IsR.max (IsR.add (IsR.sum _ _ fun i _ => ?_) (hb1 k)) IsR.zero
  exact IsR.mul (IsR.mul (IsR.add (IsR.add IsR.zero (IsR.sum _ _ fun e _ => hx _ _)) (hx n i)) (IsR.coe _)) (hW1 i k)

/-- On real inputs, with every `dp n` a positive real, the output that aggregates, divides and projects last equals the
    output that projects first, aggregates the projections and scales by the reciprocal. -/
theorem outR_eq_outK (sidx didx : IVec ⟨2, ![1600000, 1]⟩ 32) (x : Fin 100000 → Fin 128 → EReal)
    (W1 : Fin 128 → Fin 128 → EReal) (b1 : Fin 128 → EReal) (W2 : Fin 128 → Fin 64 → EReal) (b2 : Fin 64 → EReal)
    (dp : Fin 100000 → EReal) (hx : ∀ n i, IsR (x n i)) (hW1 : ∀ i k, IsR (W1 i k)) (hb1 : ∀ k, IsR (b1 k))
    (hW2 : ∀ k j, IsR (W2 k j)) (hdp : ∀ n, ∃ d : ℝ, 0 < d ∧ dp n = (d : EReal)) (n : Fin 100000) (j : Fin 64) :
    outR sidx didx x W1 b1 W2 b2 dp n j = outK sidx didx x W1 b1 W2 b2 dp n j := by
  -- the two hidden layers are one function
  have hfun : hidR sidx didx x W1 b1 dp = hidK sidx didx x W1 b1 dp :=
    funext fun n => funext fun k => hidR_eq_hidK sidx didx x W1 b1 dp hdp n k
  have hK : ∀ n k, IsR (hidK sidx didx x W1 b1 dp n k) := hidK_isR sidx didx x W1 b1 dp hx hW1 hb1 hdp
  obtain ⟨d, hd, e⟩ := hdp n
  have hc : IsR (Ideal.div 1 (dp n)) := by rw [e, div_one_isR (ne_of_gt hd)]; exact IsR.coe _
  -- aggregation commutes with the projection to column j
  have key : (aggr sidx didx (proj (hidK sidx didx x W1 b1 dp) W2) n j + proj (hidK sidx didx x W1 b1 dp) W2 n j)
        * Ideal.div 1 (dp n)
      = ∑ k : Fin 128, ((aggr sidx didx (hidK sidx didx x W1 b1 dp) n k + hidK sidx didx x W1 b1 dp n k)
          * Ideal.div 1 (dp n)) * W2 k j :=
    aggregate_project (edges didx n) (fun e k => hidK sidx didx x W1 b1 dp (srcRow sidx e) k)
      (fun k => hidK sidx didx x W1 b1 dp n k) (fun k => W2 k j) (Ideal.div 1 (dp n))
      (fun e k => hK (srcRow sidx e) k) (fun k => hK n k) (fun k => hW2 k j) hc
  unfold outR outK
  rw [hfun, key]
  refine congrArg (· + b2 j) ?_
  refine Finset.sum_congr rfl fun k _ => ?_
  rw [e, mul_div_one (ne_of_gt hd)]

end Cert.Sage

end
-- ==== Proof.RefValue.lean ====
/-
  The reference program's result, entry by entry, is the arrangement `outR` of the two-layer neighbourhood-mean network.
  Each layer of the program gathers the rows its edges read, scatter-adds them into a zero array at the edges'
  destinations (the aggregate `aggr`), adds the node's own row, divides by the degree count `dp` (a scatter-add of ones
  into zeros, plus one), multiplies by the layer's weights and adds its bias; the first layer ends in a maximum with zero.
-/
import proofs.«102022_j7086696038727_2_alg».proof.Proof.Gen.ReferenceIdeal.Read
import proofs.«102022_j7086696038727_2_alg».proof.Proof.Spec
import proofs.«102022_j7086696038727_2_alg».proof.Proof.LibRowGatherScatter
import proofs.«102022_j7086696038727_2_alg».proof.Proof.LibRealSums

noncomputable section

namespace Cert.ReferenceIdeal.RefValue

open Cert.ReferenceIdeal Cert.ReferenceIdeal.Gen Cert.ReferenceIdeal.Read Idealize.ShloMosaic Idealize.ShloMosaic.ValueIdx Cert.Sage

/-- The types of the program's seven argument arrays at the ideal instance. -/
abbrev T0 : Type := (⟨S100000x128, .f32⟩ : BufTy).Contents (Elt Ideal)
abbrev TI : Type := (⟨S1600000, .i32⟩ : BufTy).Contents (Elt Ideal)
abbrev T3 : Type := (⟨S128x128, .f32⟩ : BufTy).Contents (Elt Ideal)
abbrev T4 : Type := (⟨S128, .f32⟩ : BufTy).Contents (Elt Ideal)
abbrev T5 : Type := (⟨S128x64, .f32⟩ : BufTy).Contents (Elt Ideal)
abbrev T6 : Type := (⟨S64, .f32⟩ : BufTy).Contents (Elt Ideal)

/-- The gathers' start indices: the source indices, a negative one wrapped by the node count, as a column. -/
def sidxOf (x1 : TI) : IVec ⟨2, ![1600000, 1]⟩ 32 := Read.val_main_v5 (F := Ideal) x1

/-- The scatters' indices: the destination indices as a column. -/
def didxOf (x2 : TI) : IVec ⟨2, ![1600000, 1]⟩ 32 := Read.val_main_v8 (F := Ideal) x2

/-- The degree count of node `n`, plus one. -/
def dpOf (x2 : TI) (n : Fin 100000) : EReal := Read.val_main_v17 (F := Ideal) x2 (ix2 n 0)

/-- The f32 word 0x3F800000 denotes the number one. -/
theorem ofBits_one_f32 : Ideal.ofBits .f32 0x3F800000#32 = 1 := by
  simp [Ideal.ofBits, Ideal.ieee, -EReal.coe_mul]; norm_num

/-- Gathering rows of `h` at the source indices and scatter-adding them into an array of zeros at the destination indices
    gives, at node `n` and column `k`, the aggregate of `h` over the edges into `n`. -/
theorem gatherScatter_apply (h : FVec Ideal S100000x128 .f32) (sidx didx : IVec S1600000x1 32)
    (z : FVec Ideal S100000x128 .f32) (hz : ∀ i, z i = 0) (n : Fin 100000) (k : Fin 128) :
    Ideal.hostScatterAdd scatter_S100000x128_S1600000x1_S1600000x128_1_0_0_1 z didx (Host.gather gather_S100000x128_S1600000x1_S1600000x128_1_0_n_n_0_1_1128 h sidx) (ix2 n k)
      = aggr sidx didx (fun n k => h (ix2 n k)) n k := by
  refine (Cert.RowOps.rowScatterAdd_apply (N := 100000) (E := 1600000) (C := 128)
    scatter_S100000x128_S1600000x1_S1600000x128_1_0_0_1_wf z didx (Host.gather gather_S100000x128_S1600000x1_S1600000x128_1_0_n_n_0_1_1128 h sidx) n k).trans ?_
  rw [hz]
  unfold aggr edges
  refine congrArg (0 + ·) (Finset.sum_congr rfl fun e _ => ?_)
  exact Cert.RowOps.rowGather_apply (N := 100000) (E := 1600000) (C := 128) (by decide)
    gather_S100000x128_S1600000x1_S1600000x128_1_0_n_n_0_1_1128_wf h sidx e k

/-- The first layer's scatter starts from an array of zeros. -/
theorem v7_zero (i : S100000x128.Idx) : val_main_v7 (F := Ideal) i = 0 := by
  rw [val_main_v7_apply, val_main_cst_apply, Ideal.ofBits_def, Ideal.ofBits_zero_f32]

/-- The second layer's scatter starts from an array of zeros. -/
theorem v32_zero (i : S100000x128.Idx) : val_main_v32 (F := Ideal) i = 0 := by
  rw [val_main_v32_apply, val_main_cst_6_apply, Ideal.ofBits_def, Ideal.ofBits_zero_f32]

/-- At the ideal instance the host's scatter-add is the exact one: the operand plus the sum of the updates that land. -/
theorem scatterAdd_eq {s si u : Shape} {w : Nat} (d : ScatterDims s si u) (x : FVec Ideal s .f32) (idx : IVec si w)
    (upd : FVec Ideal u .f32) : Host.scatterAdd (F := Ideal) d x idx upd = Ideal.hostScatterAdd d x idx upd := rfl

/-- The first layer's aggregate: the scatter-add of the gathered input rows. -/
theorem v9_apply (x0 : T0) (x1 x2 : TI) (n : Fin 100000) (k : Fin 128) :
    val_main_v9 (F := Ideal) x0 x1 x2 (ix2 n k) = aggr (sidxOf x1) (didxOf x2) (fun n k => x0 (ix2 n k)) n k :=
  have e1 : val_main_v9 (F := Ideal) x0 x1 x2
      = Host.scatterAdd (F := Ideal) scatter_S100000x128_S1600000x1_S1600000x128_1_0_0_1 (val_main_v7 (F := Ideal)) (val_main_v8 (F := Ideal) x2)
          (Host.gather gather_S100000x128_S1600000x1_S1600000x128_1_0_n_n_0_1_1128 x0 (val_main_v5 (F := Ideal) x1)) := rfl
  (congrFun e1 (ix2 n k)).trans ((congrFun (scatterAdd_eq _ _ _ _) (ix2 n k)).trans
    (gatherScatter_apply x0 (val_main_v5 (F := Ideal) x1) (val_main_v8 (F := Ideal) x2) (val_main_v7 (F := Ideal))
      v7_zero n k))

/-- The first layer's divisor, broadcast along the columns, is the degree count plus one. -/
theorem v18_apply (x2 : TI) (n : Fin 100000) (k : Fin 128) : val_main_v18 (F := Ideal) x2 (ix2 n k) = dpOf x2 n := by
  rw [val_main_v18_apply]
  have e : idx_main_v18 (ix2 n k) = ix2 n 0 := funext fun a => Fin.ext (by
    match a with
    | ⟨0, _⟩ => rfl
    | ⟨1, _⟩ => rfl)
  rw [e]
  unfold dpOf
  rfl

/-- The first layer's mean: aggregate plus own row, divided by the degree count plus one. -/
theorem v19_apply (x0 : T0) (x1 x2 : TI) (n : Fin 100000) (i : Fin 128) :
    val_main_v19 (F := Ideal) x0 x1 x2 (ix2 n i)
      = Ideal.div (aggr (sidxOf x1) (didxOf x2) (fun n k => x0 (ix2 n k)) n i + x0 (ix2 n i)) (dpOf x2 n) := by
  rw [val_main_v19_apply, val_main_v14_apply, v18_apply, v9_apply, Ideal.hostDivf_def, Ideal.addf_def]

/-- The hidden layer of the program is the hidden layer that divides by the degree count plus one. -/
theorem v24_apply (x0 : T0) (x1 x2 : TI) (x3 : T3) (x4 : T4) (n : Fin 100000) (k : Fin 128) :
    val_main_v24 (F := Ideal) x0 x1 x2 x3 x4 (ix2 n k)
      = hidR (sidxOf x1) (didxOf x2) (fun n k => x0 (ix2 n k)) (fun i k => x3 (ix2 i k)) (fun k => x4 (ix1 k))
          (dpOf x2) n k := by
  rw [val_main_v24_apply, val_main_v23_apply, val_main_v20_apply, val_main_v22_apply, val_main_v21_apply,
    val_main_call0_v0_apply, val_main_call0_cst_apply]
  have e1 : ∀ k', lidx_main_v20 (ix2 n k) k' = ix2 n k' := fun k' => funext fun a => Fin.ext (by
    match a with
    | ⟨0, _⟩ => rfl
    | ⟨1, _⟩ => rfl)
  have e2 : ∀ k', ridx_main_v20 (ix2 n k) k' = ix2 k' k := fun k' => funext fun a => Fin.ext (by
    match a with
    | ⟨0, _⟩ => rfl
    | ⟨1, _⟩ => rfl)
  have e3 : idx_main_v21 (idx_main_v22 (ix2 n k)) = ix1 k := funext fun a => Fin.ext (by
    match a with
    | ⟨0, _⟩ => rfl)
  simp only [e1, e2, e3, v19_apply, Ideal.maximumf_def, Ideal.addf_def, Ideal.ofBits_def, Ideal.ofBits_zero_f32]
  unfold hidR
  rfl

/-- The second layer's aggregate: the scatter-add of the gathered hidden rows. -/
theorem v34_apply (x0 : T0) (x1 x2 : TI) (x3 : T3) (x4 : T4) (n : Fin 100000) (k : Fin 128) :
    val_main_v34 (F := Ideal) x0 x1 x2 x3 x4 (ix2 n k)
      = aggr (sidxOf x1) (didxOf x2) (hidR (sidxOf x1) (didxOf x2) (fun n k => x0 (ix2 n k)) (fun i k => x3 (ix2 i k))
          (fun k => x4 (ix1 k)) (dpOf x2)) n k :=
  have e1 : val_main_v34 (F := Ideal) x0 x1 x2 x3 x4
      = Host.scatterAdd (F := Ideal) scatter_S100000x128_S1600000x1_S1600000x128_1_0_0_1 (val_main_v32 (F := Ideal)) (val_main_v33 (F := Ideal) x2)
          (Host.gather gather_S100000x128_S1600000x1_S1600000x128_1_0_n_n_0_1_1128 (val_main_v24 (F := Ideal) x0 x1 x2 x3 x4) (val_main_v30 (F := Ideal) x1)) := rfl
  -- the second layer's index columns are the first layer's
  have e2 : val_main_v30 (F := Ideal) x1 = sidxOf x1 := rfl
  have e3 : val_main_v33 (F := Ideal) x2 = didxOf x2 := rfl
  have hfun : (fun n k => val_main_v24 (F := Ideal) x0 x1 x2 x3 x4 (ix2 n k))
      = hidR (sidxOf x1) (didxOf x2) (fun n k => x0 (ix2 n k)) (fun i k => x3 (ix2 i k)) (fun k => x4 (ix1 k)) (dpOf x2) :=
    funext fun n => funext fun k => v24_apply x0 x1 x2 x3 x4 n k
  have e4 : aggr (val_main_v30 (F := Ideal) x1) (val_main_v33 (F := Ideal) x2)
        (fun n k => val_main_v24 (F := Ideal) x0 x1 x2 x3 x4 (ix2 n k)) n k
      = aggr (sidxOf x1) (didxOf x2) (hidR (sidxOf x1) (didxOf x2) (fun n k => x0 (ix2 n k)) (fun i k => x3 (ix2 i k))
          (fun k => x4 (ix1 k)) (dpOf x2)) n k := by rw [e2, e3, hfun]
  (congrFun e1 (ix2 n k)).trans ((congrFun (scatterAdd_eq _ _ _ _) (ix2 n k)).trans
    ((gatherScatter_apply (val_main_v24 (F := Ideal) x0 x1 x2 x3 x4) (val_main_v30 (F := Ideal) x1)
      (val_main_v33 (F := Ideal) x2) (val_main_v32 (F := Ideal)) v32_zero n k).trans e4))

/-- The second layer's mean: aggregate of the hidden rows plus own hidden row, divided by the degree count plus one. -/
theorem v44_apply (x0 : T0) (x1 x2 : TI) (x3 : T3) (x4 : T4) (n : Fin 100000) (k : Fin 128) :
    val_main_v44 (F := Ideal) x0 x1 x2 x3 x4 (ix2 n k)
      = Ideal.div (aggr (sidxOf x1) (didxOf x2) (hidR (sidxOf x1) (didxOf x2) (fun n k => x0 (ix2 n k))
            (fun i k => x3 (ix2 i k)) (fun k => x4 (ix1 k)) (dpOf x2)) n k
          + hidR (sidxOf x1) (didxOf x2) (fun n k => x0 (ix2 n k)) (fun i k => x3 (ix2 i k)) (fun k => x4 (ix1 k))
            (dpOf x2) n k) (dpOf x2 n) := by
  have e : val_main_v43 (F := Ideal) x2 (ix2 n k) = dpOf x2 n := v18_apply x2 n k
  rw [val_main_v44_apply, val_main_v39_apply, v34_apply, v24_apply, e, Ideal.hostDivf_def, Ideal.addf_def]

/-- THE REFERENCE'S RESULT at node `n` and column `j` is the arrangement that aggregates the hidden rows, divides by the
    degree count plus one, and projects last. -/
theorem ref_apply (x0 : T0) (x1 x2 : TI) (x3 : T3) (x4 : T4) (x5 : T5) (x6 : T6) (n : Fin 100000) (j : Fin 64) :
    Read.val_main_v48 (F := Ideal) x0 x1 x2 x3 x4 x5 x6 (ix2 n j)
      = outR (sidxOf x1) (didxOf x2) (fun n k => x0 (ix2 n k)) (fun i k => x3 (ix2 i k)) (fun k => x4 (ix1 k))
          (fun k j => x5 (ix2 k j)) (fun j => x6 (ix1 j)) (dpOf x2) n j := by
  rw [val_main_v48_apply, val_main_v45_apply, val_main_v47_apply, val_main_v46_apply]
  have e1 : ∀ k, lidx_main_v45 (ix2 n j) k = ix2 n k := fun k => funext fun a => Fin.ext (by
    match a with
    | ⟨0, _⟩ => rfl
    | ⟨1, _⟩ => rfl)
  have e2 : ∀ k, ridx_main_v45 (ix2 n j) k = ix2 k j := fun k => funext fun a => Fin.ext (by
    match a with
    | ⟨0, _⟩ => rfl
    | ⟨1, _⟩ => rfl)
  have e3 : idx_main_v46 (idx_main_v47 (ix2 n j)) = ix1 j := funext fun a => Fin.ext (by
    match a with
    | ⟨0, _⟩ => rfl)
  simp only [e1, e2, e3, v44_apply, Ideal.addf_def]
  unfold outR
  rfl

/-- The degree count's scatter starts from an array of zeros. -/
theorem v11_zero (i : S100000.Idx) : val_main_v11 (F := Ideal) i = 0 := by
  rw [val_main_v11_apply, val_main_cst_2_apply, Ideal.ofBits_def, Ideal.ofBits_zero_f32]

/-- The degree count's updates are all the number one. -/
theorem v10_one (j : S1600000.Idx) : val_main_v10 (F := Ideal) j = 1 := by
  rw [val_main_v10_apply, val_main_cst_1_apply, Ideal.ofBits_def, ofBits_one_f32]

/-- The constant added to the degree count is the number one. -/
theorem v16_one (i : S100000x1.Idx) : val_main_v16 (F := Ideal) i = 1 := by
  rw [val_main_v16_apply, val_main_cst_3_apply, Ideal.ofBits_def, ofBits_one_f32]

/-- The exact scatter-add of an array of ones into an array of zeros is, at each index, zero plus a sum of ones over a
    finite set. -/
theorem scatterOnes_apply {s si u : Shape} {w : Nat} (d : ScatterDims s si u) (z : s.Idx → EReal) (idx : IVec si w)
    (o : u.Idx → EReal) (hz : ∀ i, z i = 0) (ho : ∀ j, o j = 1) (i : s.Idx) :
    ∃ t : Finset u.Idx, Ideal.hostScatterAdd d z idx o i = (0 : EReal) + ∑ _j ∈ t, (1 : EReal) := by
  refine ⟨Finset.univ.filter (fun j => d.resultIdx? j idx = some i), ?_⟩
  unfold Ideal.hostScatterAdd
  rw [hz]
  exact congrArg (0 + ·) (Finset.sum_congr rfl fun j _ => ho j)

/-- The degree count plus one is a sum of ones over a finite set of edges, started at zero, plus one. -/
theorem dpOf_eq (x2 : TI) (n : Fin 100000) :
    ∃ t : Finset S1600000.Idx, dpOf x2 n = ((0 : EReal) + ∑ _j ∈ t, (1 : EReal)) + 1 := by
  obtain ⟨t, e⟩ := scatterOnes_apply scatter_S100000_S1600000x1_S1600000_n_0_0_1 (val_main_v11 (F := Ideal)) (val_main_v12 (F := Ideal) x2)
    (val_main_v10 (F := Ideal)) v11_zero v10_one (idx_main_v15 (ix2 n 0))
  have e1 : val_main_v13 (F := Ideal) x2
      = Host.scatterAdd (F := Ideal) scatter_S100000_S1600000x1_S1600000_n_0_0_1 (val_main_v11 (F := Ideal)) (val_main_v12 (F := Ideal) x2)
          (val_main_v10 (F := Ideal)) := rfl
  have e2 : val_main_v13 (F := Ideal) x2 (idx_main_v15 (ix2 n 0)) = (0 : EReal) + ∑ _j ∈ t, (1 : EReal) :=
    (congrFun e1 _).trans ((congrFun (scatterAdd_eq _ _ _ _) _).trans e)
  refine ⟨t, ?_⟩
  unfold dpOf
  rw [val_main_v17_apply, val_main_v15_apply, e2, v16_one, Ideal.addf_def]

/-- The degree count plus one is a positive real number. -/
theorem dpOf_pos (x2 : TI) (n : Fin 100000) : ∃ d : ℝ, 0 < d ∧ dpOf x2 n = (d : EReal) := by
  obtain ⟨t, e⟩ := dpOf_eq x2 n
  obtain ⟨d, hd, e'⟩ := Cert.RealSums.count_add_one_pos t
  exact ⟨d, hd, e.trans e'⟩

end Cert.ReferenceIdeal.RefValue

end
-- ==== Proof.HostReads.lean ====
/-
  What the idealized kernel program's buffers hold at the boundaries between its five segments (a stretch of host
  operations, two kernel regions, a second stretch of host operations, a third region), read as plain terms of the
  launch memory: each stretch's results as the composed pure operations of the arguments' launch contents, each region's
  output array as what its pipeline leaves, and every buffer a segment does not write as it was before the segment.
-/
import proofs.«102022_j7086696038727_2_alg».proof.Proof.Gen.KernelIdeal.Frame
import Idealize.ShloMosaic.Lib.StableHlo.Run

noncomputable section

namespace Cert.KernelIdeal.HostReads

open Cert.KernelIdeal Cert.KernelIdeal.Gen Idealize.ShloMosaic Idealize.ShloMosaic.TcCoe Idealize.SL.Sem Idealize.ShloMosaic.StableHlo

variable {F : FTy → Type} [FloatOps F] (m : (ℓ : Loc nD τ sig) → Buf (Elt F) ℓ) (ρ : Dev nD → PrngReg)

/-! ## The two index arrays -/

/-- The gather's start indices: the source-node array with every negative entry wrapped once by the node count
    (\`i < 0 ? i + 100000 : i\`), as a column \`[E, 1]\`. -/
def idxS (c : Dev nD) : (⟨S1600000x1, .i32⟩ : BufTy).Contents (Elt F) :=
  broadcastInDim S1600000x1 ![0] bcast_S1600000_S1600000x1_0
    (select
      (cmpi .slt (m ((c : Thread nD τ).loc main_arg1))
        (broadcastInDim S1600000 ![] bcast_S_S1600000 (constantI S_ 32 0#32)))
      (addi (m ((c : Thread nD τ).loc main_arg1))
        (broadcastInDim S1600000 ![] bcast_S_S1600000 (constantI S_ 32 100000#32)))
      (m ((c : Thread nD τ).loc main_arg1)))

/-- The scatter's indices: the destination-node array as a column \`[E, 1]\`. -/
def idxD (c : Dev nD) : (⟨S1600000x1, .i32⟩ : BufTy).Contents (Elt F) :=
  broadcastInDim S1600000x1 ![0] bcast_S1600000_S1600000x1_0 (m ((c : Thread nD τ).loc main_arg2))

/-! ## After the first stretch of host operations (region 0's entry) -/

/-- The neighbour sum of the input features: the rows gathered at the source nodes, scatter-added at the destination
    nodes into zeros. -/
theorem V1_v18 (c : Dev nD) :
    V1 m ρ c main_v18 =
      (Host.scatterAdd scatter_S100000x128_S1600000x1_S1600000x128_1_0_0_1
        (broadcastInDim S100000x128 ![] bcast_S_S100000x128 (constant (F := F) S_ .f32 0x00000000#32))
        (idxD m c)
        (Host.gather gather_S100000x128_S1600000x1_S1600000x128_1_0_n_n_0_1_1128
          (m ((c : Thread nD τ).loc main_arg0)) (idxS m c))
        : (⟨S100000x128, .f32⟩ : BufTy).Contents (Elt F)) := by
  show StableHlo.after hostOps0 (W0 m ρ c) (Proc.devRef .tc main_v18) = _
  after_results_simp
  rfl

/-- No operation of the first stretch writes an argument: each holds its launch contents at region 0's entry. -/
theorem V1_arg0 (c : Dev nD) : V1 m ρ c main_arg0 = m ((c : Thread nD τ).loc main_arg0) := by
  show StableHlo.after hostOps0 (W0 m ρ c) (Proc.devRef .tc main_arg0) = _
  after_results_simp <;> rfl
theorem V1_arg1 (c : Dev nD) : V1 m ρ c main_arg1 = m ((c : Thread nD τ).loc main_arg1) := by
  show StableHlo.after hostOps0 (W0 m ρ c) (Proc.devRef .tc main_arg1) = _
  after_results_simp <;> rfl
theorem V1_arg2 (c : Dev nD) : V1 m ρ c main_arg2 = m ((c : Thread nD τ).loc main_arg2) := by
  show StableHlo.after hostOps0 (W0 m ρ c) (Proc.devRef .tc main_arg2) = _
  after_results_simp <;> rfl
theorem V1_arg3 (c : Dev nD) : V1 m ρ c main_arg3 = m ((c : Thread nD τ).loc main_arg3) := by
  show StableHlo.after hostOps0 (W0 m ρ c) (Proc.devRef .tc main_arg3) = _
  after_results_simp <;> rfl
theorem V1_arg5 (c : Dev nD) : V1 m ρ c main_arg5 = m ((c : Thread nD τ).loc main_arg5) := by
  show StableHlo.after hostOps0 (W0 m ρ c) (Proc.devRef .tc main_arg5) = _
  after_results_simp <;> rfl
theorem V1_arg6 (c : Dev nD) : V1 m ρ c main_arg6 = m ((c : Thread nD τ).loc main_arg6) := by
  show StableHlo.after hostOps0 (W0 m ρ c) (Proc.devRef .tc main_arg6) = _
  after_results_simp <;> rfl

/-- The reciprocal of one plus the in-degree, as a column \`[N, 1]\`: ones scatter-added at the destination nodes into
    zeros count each node's incoming edges. -/
theorem V1_v8 (c : Dev nD) :
    V1 m ρ c main_v8 =
      (shapeCast S100000x1
        (Host.divf
          (broadcastInDim S100000 ![] bcast_S_S100000 (constant (F := F) S_ .f32 0x3F800000#32))
          (addf
            (Host.scatterAdd scatter_S100000_S1600000x1_S1600000_n_0_0_1
              (broadcastInDim S100000 ![] bcast_S_S100000 (constant (F := F) S_ .f32 0x00000000#32))
              (idxD m c)
              (broadcastInDim S1600000 ![] bcast_S_S1600000 (constant (F := F) S_ .f32 0x3F800000#32)))
            (broadcastInDim S100000 ![] bcast_S_S100000 (constant (F := F) S_ .f32 0x3F800000#32))))
        shapeCasts_S100000_S100000x1
        : (⟨S100000x1, .f32⟩ : BufTy).Contents (Elt F)) := by
  show StableHlo.after hostOps0 (W0 m ρ c) (Proc.devRef .tc main_v8) = _
  after_results_simp
  rfl

/-- The first layer's bias as a row \`[1, 128]\`. -/
theorem V1_v19 (c : Dev nD) :
    V1 m ρ c main_v19 =
      (shapeCast S1x128 (m ((c : Thread nD τ).loc main_arg4)) shapeCasts_S128_S1x128
        : (⟨S1x128, .f32⟩ : BufTy).Contents (Elt F)) := by
  show StableHlo.after hostOps0 (W0 m ρ c) (Proc.devRef .tc main_v19) = _
  after_results_simp
  rfl

/-! ## After region 0 (region 1's entry) -/

/-- Region 0's output array holds what its pipeline leaves. -/
theorem V2_v20 (c : Dev nD) : V2 m ρ c main_v20 = (dat0 (V1 m ρ) c).arrAt 5 cfg0.N :=
  W2_arr m ρ c 5

/-- The second layer's weights are no array of region 0: they hold their launch contents at region 1's entry. -/
theorem V2_arg5 (c : Dev nD) : V2 m ρ c main_arg5 = m ((c : Thread nD τ).loc main_arg5) :=
  (W2_of_ne m ρ c main_arg5 (by decide)).trans (V1_arg5 m ρ c)

/-! ## After region 1 -/

/-- Region 1's output array holds what its pipeline leaves. -/
theorem V3_v21 (c : Dev nD) : V3 m ρ c main_v21 = (dat1 (V2 m ρ) c).arrAt 2 cfg1.N :=
  W3_arr m ρ c 2

/-- The two index arrays and the second bias are arrays of neither region: they hold their launch contents after
    region 1. -/
theorem V3_arg1 (c : Dev nD) : V3 m ρ c main_arg1 = m ((c : Thread nD τ).loc main_arg1) :=
  (W3_of_ne m ρ c main_arg1 (by decide)).trans ((W2_of_ne m ρ c main_arg1 (by decide)).trans (V1_arg1 m ρ c))
theorem V3_arg2 (c : Dev nD) : V3 m ρ c main_arg2 = m ((c : Thread nD τ).loc main_arg2) :=
  (W3_of_ne m ρ c main_arg2 (by decide)).trans ((W2_of_ne m ρ c main_arg2 (by decide)).trans (V1_arg2 m ρ c))
theorem V3_arg6 (c : Dev nD) : V3 m ρ c main_arg6 = m ((c : Thread nD τ).loc main_arg6) :=
  (W3_of_ne m ρ c main_arg6 (by decide)).trans ((W2_of_ne m ρ c main_arg6 (by decide)).trans (V1_arg6 m ρ c))

/-- The degree column is an input array of region 0 and no array of region 1: after region 1 it is as the first
    stretch left it. -/
theorem V3_v8 (c : Dev nD) : V3 m ρ c main_v8 = V1 m ρ c main_v8 :=
  (W3_of_ne m ρ c main_v8 (by decide)).trans
    ((W2_arr m ρ c 2).trans (((dat0 (V1 m ρ) c).arrAt_in 2 rfl _).trans (A_eq0 (V1 m ρ) c 2)))

/-! ## After the second stretch of host operations (region 2's entry) -/

/-- The neighbour sum of the second layer's features: region 1's output gathered at the source nodes and
    scatter-added at the destination nodes into zeros. -/
theorem V4_v31 (c : Dev nD) :
    V4 m ρ c main_v31 =
      (Host.scatterAdd scatter_S100000x64_S1600000x1_S1600000x64_1_0_0_1
        (broadcastInDim S100000x64 ![] bcast_S_S100000x64 (constant (F := F) S_ .f32 0x00000000#32))
        (idxD m c)
        (Host.gather gather_S100000x64_S1600000x1_S1600000x64_1_0_n_n_0_1_164
          (V3 m ρ c main_v21) (idxS m c))
        : (⟨S100000x64, .f32⟩ : BufTy).Contents (Elt F)) := by
  show StableHlo.after hostOps2 (W3 m ρ c) (Proc.devRef .tc main_v31) = _
  after_results_simp
  have h1 : W3 m ρ c (Proc.devRef .tc main_arg1) = m ((c : Thread nD τ).loc main_arg1) := V3_arg1 m ρ c
  have h2 : W3 m ρ c (Proc.devRef .tc main_arg2) = m ((c : Thread nD τ).loc main_arg2) := V3_arg2 m ρ c
  rw [h1, h2]
  rfl

/-- No operation of the second stretch writes region 1's output or the degree column. -/
theorem V4_v21 (c : Dev nD) : V4 m ρ c main_v21 = V3 m ρ c main_v21 := by
  show StableHlo.after hostOps2 (W3 m ρ c) (Proc.devRef .tc main_v21) = _
  after_results_simp <;> rfl
theorem V4_v8 (c : Dev nD) : V4 m ρ c main_v8 = V1 m ρ c main_v8 := by
  refine Eq.trans ?_ (V3_v8 m ρ c)
  show StableHlo.after hostOps2 (W3 m ρ c) (Proc.devRef .tc main_v8) = _
  after_results_simp <;> rfl

/-- The second layer's bias as a row \`[1, 64]\`. -/
theorem V4_v32 (c : Dev nD) :
    V4 m ρ c main_v32 =
      (shapeCast S1x64 (m ((c : Thread nD τ).loc main_arg6)) shapeCasts_S64_S1x64
        : (⟨S1x64, .f32⟩ : BufTy).Contents (Elt F)) := by
  show StableHlo.after hostOps2 (W3 m ρ c) (Proc.devRef .tc main_v32) = _
  after_results_simp
  have h6 : W3 m ρ c (Proc.devRef .tc main_arg6) = m ((c : Thread nD τ).loc main_arg6) := V3_arg6 m ρ c
  rw [h6]
  rfl

end Cert.KernelIdeal.HostReads

end
-- ==== Proof.KernelPay.lean ====
/-
  The three kernel bodies' arithmetic at the ideal values, read at one entry of the 4000-row output block.
  First body: relu of ((a + x) · inv) W + b. Second: x W. Third: (a + z) · inv + b. A change of float format is the
  identity, a block product into a zero accumulator is the plain sum over the contracted axis, and a broadcast of a
  column (one entry per row) or of a row (one entry per column) reads that entry.
-/
import proofs.«102022_j7086696038727_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx Idealize.ShloMosaic.Pipeline

private theorem mmA_l0 (i : S4000x128.Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
private theorem mmA_l1 (i : S4000x128.Idx) (q : dot_S4000x128_S128x128_S4000x128_1_0_0_1_n_n.contr.Idx) : (dot_S4000x128_S128x128_S4000x128_1_0_0_1_n_n.lhsIdx i q 1).val = (q ⟨0, by decide⟩).val :=
  dot_S4000x128_S128x128_S4000x128_1_0_0_1_n_n.lhsIdx_val_of_single rfl i q
private theorem mmA_r0 (i : S4000x128.Idx) (q : dot_S4000x128_S128x128_S4000x128_1_0_0_1_n_n.contr.Idx) : (dot_S4000x128_S128x128_S4000x128_1_0_0_1_n_n.rhsIdx i q 0).val = (q ⟨0, by decide⟩).val :=
  dot_S4000x128_S128x128_S4000x128_1_0_0_1_n_n.rhsIdx_val_of_single rfl i q
private theorem mmA_r1 (i : S4000x128.Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The block product into a zero accumulator, at row `p` and column `q`: the sum over the 128 contracted positions of
    the left operand's row entry times the right operand's column entry. -/
theorem mmA_apply {φ₁ φ₂ : FTy} (l : FVec Ideal S4000x128 φ₁) (r : FVec Ideal S128x128 φ₂) (p : Fin 4000) (q : Fin 128) :
    FloatOps.matmul dot_S4000x128_S128x128_S4000x128_1_0_0_1_n_n none l r (constant S4000x128 .f32 0x00000000#32) (ix2 p q) = ∑ k : Fin 128, l (ix2 p k) * r (ix2 k q) := by
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact mmA_l0 _ _
    | ⟨1, _⟩ => exact (mmA_l1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (mmA_r0 _ _).trans hk
    | ⟨1, _⟩ => exact mmA_r1 _ _)
  rw [el, er]

private theorem mmB_l0 (i : S4000x64.Idx) (q : dot_S4000x128_S128x64_S4000x64_1_0_0_1_n_n.contr.Idx) : (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
private theorem mmB_l1 (i : S4000x64.Idx) (q : dot_S4000x128_S128x64_S4000x64_1_0_0_1_n_n.contr.Idx) : (dot_S4000x128_S128x64_S4000x64_1_0_0_1_n_n.lhsIdx i q 1).val = (q ⟨0, by decide⟩).val :=
  dot_S4000x128_S128x64_S4000x64_1_0_0_1_n_n.lhsIdx_val_of_single rfl i q
private theorem mmB_r0 (i : S4000x64.Idx) (q : dot_S4000x128_S128x64_S4000x64_1_0_0_1_n_n.contr.Idx) : (dot_S4000x128_S128x64_S4000x64_1_0_0_1_n_n.rhsIdx i q 0).val = (q ⟨0, by decide⟩).val :=
  dot_S4000x128_S128x64_S4000x64_1_0_0_1_n_n.rhsIdx_val_of_single rfl i q
private theorem mmB_r1 (i : S4000x64.Idx) (q : dot_S4000x128_S128x64_S4000x64_1_0_0_1_n_n.contr.Idx) : (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- The block product into a zero accumulator, at row `p` and column `q`: the sum over the 128 contracted positions of
    the left operand's row entry times the right operand's column entry. -/
theorem mmB_apply {φ₁ φ₂ : FTy} (l : FVec Ideal S4000x128 φ₁) (r : FVec Ideal S128x64 φ₂) (p : Fin 4000) (q : Fin 64) :
    FloatOps.matmul dot_S4000x128_S128x64_S4000x64_1_0_0_1_n_n none l r (constant S4000x64 .f32 0x00000000#32) (ix2 p q) = ∑ k : Fin 128, l (ix2 p k) * r (ix2 k q) := by
  rw [Ideal.matmul_constant_zero_apply, ← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p q) ((contrEquiv1 dot_S4000x128_S128x64_S4000x64_1_0_0_1_n_n 128 rfl rfl).symm k) = ix2 p k := funext fun a => Fin.ext (by
    match a with
    | ⟨0, _⟩ => exact mmB_l0 _ _
    | ⟨1, _⟩ => exact (mmB_l1 _ _).trans hk)
  have er : dot_S4000x128_S128x64_S4000x64_1_0_0_1_n_n.rhsIdx (ix2 p q) ((contrEquiv1 dot_S4000x128_S128x64_S4000x64_1_0_0_1_n_n 128 rfl rfl).symm k) = ix2 k q := funext fun a => Fin.ext (by
    match a with
    | ⟨0, _⟩ => exact (mmB_r0 _ _).trans hk
    | ⟨1, _⟩ => exact mmB_r1 _ _)
  rw [el, er]

/-- A column (one entry per row) broadcast along the rows' entries reads the row's entry. -/
theorem bcastCol_apply {α : Type} {C : Nat} (h : S4000x1.Broadcasts (⟨2, ![4000, C]⟩ : Shape)) (x : S4000x1.Idx → α) (p : Fin 4000) (q : Fin C) :
    broadcastTo (⟨2, ![4000, C]⟩ : Shape) x h (ix2 p q) = x (ix2 p 0) := by
  refine broadcastTo_apply x h (ix2 p q) (ix2 p 0) fun a => ?_
  match a with
  | ⟨0, _⟩ => rfl
  | ⟨1, _⟩ => rfl

/-- A row (one entry per column) broadcast down the rows reads the column's entry. -/
theorem bcastRow_apply {α : Type} {C : Nat} (h : (⟨2, ![1, C]⟩ : Shape).Broadcasts (⟨2, ![4000, C]⟩ : Shape)) (x : (⟨2, ![1, C]⟩ : Shape).Idx → α) (p : Fin 4000) (q : Fin C) (hC : C ≠ 1) :
    broadcastTo (⟨2, ![4000, C]⟩ : Shape) x h (ix2 p q) = x (ix2 0 q) := by
  refine broadcastTo_apply x h (ix2 p q) (ix2 0 q) fun a => ?_
  match a with
  | ⟨0, _⟩ => rfl
  | ⟨1, _⟩ =>
    show q.val = if C = 1 then 0 else q.val
    rw [if_neg hC]

theorem zero_word : (FloatOps.ofBits .f32 0x00000000#32 : Ideal .f32) = (0 : EReal) := Ideal.ofBits_zero_f32

/-- The first body at entry (p, q): relu of the row of (a + x)·inv times column q of W, plus b's entry. -/
theorem k0_apply (x0 x1 : Vec Ideal S4000x128 .f32) (x2 : Vec Ideal S4000x1 .f32) (x3 : Vec Ideal S128x128 .f32)
    (x4 : Vec Ideal S1x128 .f32) (p : Fin 4000) (q : Fin 128) :
    k0_pay1 x0 x1 x2 x3 x4 (ix2 p q)
      = max ((∑ k : Fin 128, ((x0 (ix2 p k) + x1 (ix2 p k)) * x2 (ix2 p 0)) * x3 (ix2 k q)) + x4 (ix2 0 q)) 0 := by
  unfold k0_pay1
  simp only [shapeCast_self]
  rw [maximumf_apply, addf_apply, broadcast_apply, bcastRow_apply (C := 128) _ _ _ _ (by decide), zero_word]
  simp only [matmul]
  rw [mmA_apply]
  refine congrArg (fun s => max (s + x4 (ix2 0 q)) 0) (Finset.sum_congr rfl fun k _ => ?_)
  rw [truncf_apply, truncf_apply, mulf_apply, addf_apply, bcastCol_apply (C := 128)]

/-- The second body at entry (p, q): row p of x times column q of W. -/
theorem k1_apply (x0 : Vec Ideal S4000x128 .f32) (x1 : Vec Ideal S128x64 .f32) (p : Fin 4000) (q : Fin 64) :
    k1_pay1 x0 x1 (ix2 p q) = ∑ k : Fin 128, x0 (ix2 p k) * x1 (ix2 k q) := by
  unfold k1_pay1
  simp only [shapeCast_self]
  simp only [matmul]
  rw [mmB_apply]
  refine Finset.sum_congr rfl fun k _ => ?_
  rw [truncf_apply, truncf_apply]

/-- The third body at entry (p, q): (a + z) times the row's inv entry, plus b's entry. -/
theorem k2_apply (x0 x1 : Vec Ideal S4000x64 .f32) (x2 : Vec Ideal S4000x1 .f32) (x3 : Vec Ideal S1x64 .f32)
    (p : Fin 4000) (q : Fin 64) :
    k2_pay1 x0 x1 x2 x3 (ix2 p q) = (x0 (ix2 p q) + x1 (ix2 p q)) * x2 (ix2 p 0) + x3 (ix2 0 q) := by
  unfold k2_pay1
  simp only [shapeCast_self]
  rw [addf_apply, mulf_apply, addf_apply, bcastCol_apply (C := 64), bcastRow_apply (C := 64) _ _ _ _ (by decide)]

end Cert.KernelIdeal.Pay

end
-- ==== Proof.RegionValue.lean ====
/-
  Each of the three grid launches, read as a value: after the launch its output array is ONE function of the arrays
  the launch found, index by index. A launch runs its body at 25 grid points; at point t the row-tiled windows hold
  rows 4000·t … 4000·t + 3999 of their arrays and the resident windows (weights, bias) their whole arrays; the body
  stores one 4000-row block, which is written back to rows 4000·t … of the output. The 25 blocks tile the 100,000 rows.
-/
import proofs.«102022_j7086696038727_2_alg».proof.Proof.Gen.KernelIdeal.Frame
import proofs.«102022_j7086696038727_2_alg».proof.Proof.KernelPay
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-! ## Launch 0 -/

/-- The printed index maps over the 25 grid points: a row-tiled window is at block (t, 0), a resident one at (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry (p, q) of window 0's block at point t sits in its array at row t·4000 + p, column q. -/
theorem emb0_0 (t : Fin cfg0.N) (p : Fin 4000) (q : Fin 128) (g : Fin 100000) (hg : g.val = t.val * 4000 + p.val) :
    ((cfg0.win 0).blk t).view.emb (ix2 p q) = (ix2 g q : S100000x128.Idx) := by
  obtain ⟨e0a, e0b, e1a, e1b, e2a, e2b, e3a, e3b, e4a, e4b, e5a, e5b⟩ := idx_facts0 t
  funext a; apply Fin.ext
  match a with
  | ⟨0, _⟩ => show win0_0.index t (0 : Fin 2) * 4000 + 1 * p.val = g.val; omega
  | ⟨1, _⟩ => show win0_0.index t (1 : Fin 2) * 128 + 1 * q.val = q.val; omega

/-- Entry (p, q) of window 1's block at point t sits in its array at row t·4000 + p, column q. -/
theorem emb0_1 (t : Fin cfg0.N) (p : Fin 4000) (q : Fin 128) (g : Fin 100000) (hg : g.val = t.val * 4000 + p.val) :
    ((cfg0.win 1).blk t).view.emb (ix2 p q) = (ix2 g q : S100000x128.Idx) := by
  obtain ⟨e0a, e0b, e1a, e1b, e2a, e2b, e3a, e3b, e4a, e4b, e5a, e5b⟩ := idx_facts0 t
  funext a; apply Fin.ext
  match a with
  | ⟨0, _⟩ => show win0_1.index t (0 : Fin 2) * 4000 + 1 * p.val = g.val; omega
  | ⟨1, _⟩ => show win0_1.index t (1 : Fin 2) * 128 + 1 * q.val = q.val; omega

/-- Entry (p, q) of window 2's block at point t sits in its array at row t·4000 + p, column q. -/
theorem emb0_2 (t : Fin cfg0.N) (p : Fin 4000) (q : Fin 1) (g : Fin 100000) (hg : g.val = t.val * 4000 + p.val) :
    ((cfg0.win 2).blk t).view.emb (ix2 p q) = (ix2 g q : S100000x1.Idx) := by
  obtain ⟨e0a, e0b, e1a, e1b, e2a, e2b, e3a, e3b, e4a, e4b, e5a, e5b⟩ := idx_facts0 t
  funext a; apply Fin.ext
  match a with
  | ⟨0, _⟩ => show win0_2.index t (0 : Fin 2) * 4000 + 1 * p.val = g.val; omega
  | ⟨1, _⟩ => show win0_2.index t (1 : Fin 2) * 1 + 1 * q.val = q.val; omega

/-- Window 3's block is its whole array at every point. -/
theorem emb0_3 (t : Fin cfg0.N) (p : Fin 128) (q : Fin 128) :
    ((cfg0.win 3).blk t).view.emb (ix2 p q) = (ix2 p q : S128x128.Idx) := by
  obtain ⟨e0a, e0b, e1a, e1b, e2a, e2b, e3a, e3b, e4a, e4b, e5a, e5b⟩ := idx_facts0 t
  funext a; apply Fin.ext
  match a with
  | ⟨0, _⟩ => show win0_3.index t (0 : Fin 2) * 128 + 1 * p.val = p.val; omega
  | ⟨1, _⟩ => show win0_3.index t (1 : Fin 2) * 128 + 1 * q.val = q.val; omega

/-- Window 4's block is its whole array at every point. -/
theorem emb0_4 (t : Fin cfg0.N) (p : Fin 1) (q : Fin 128) :
    ((cfg0.win 4).blk t).view.emb (ix2 p q) = (ix2 p q : S1x128.Idx) := by
  obtain ⟨e0a, e0b, e1a, e1b, e2a, e2b, e3a, e3b, e4a, e4b, e5a, e5b⟩ := idx_facts0 t
  funext a; apply Fin.ext
  match a with
  | ⟨0, _⟩ => show win0_4.index t (0 : Fin 2) * 1 + 1 * p.val = p.val; omega
  | ⟨1, _⟩ => show win0_4.index t (1 : Fin 2) * 128 + 1 * q.val = q.val; omega

/-- Entry (p, q) of window 5's block at point t sits in its array at row t·4000 + p, column q. -/
theorem emb0_5 (t : Fin cfg0.N) (p : Fin 4000) (q : Fin 128) (g : Fin 100000) (hg : g.val = t.val * 4000 + p.val) :
    ((cfg0.win 5).blk t).view.emb (ix2 p q) = (ix2 g q : S100000x128.Idx) := by
  obtain ⟨e0a, e0b, e1a, e1b, e2a, e2b, e3a, e3b, e4a, e4b, e5a, e5b⟩ := idx_facts0 t
  funext a; apply Fin.ext
  match a with
  | ⟨0, _⟩ => show win0_5.index t (0 : Fin 2) * 4000 + 1 * p.val = g.val; omega
  | ⟨1, _⟩ => show win0_5.index t (1 : Fin 2) * 128 + 1 * q.val = q.val; omega

/-- The first launch's output as one function of its five input arrays: row n, column q is relu of the row of
    (a + x)·inv times column q of w, plus b's entry. -/
def R0 (a x : S100000x128.Idx → EReal) (inv : S100000x1.Idx → EReal) (w : S128x128.Idx → EReal) (b : S1x128.Idx → EReal) : S100000x128.Idx → EReal :=
  fun i => (fun (n : Fin 100000) (q : Fin 128) => max ((∑ k : Fin 128, ((a (ix2 n k) + x (ix2 n k)) * inv (ix2 n 0)) * w (ix2 k q)) + b (ix2 0 q)) 0) (i 0) (i 1)

theorem R0_apply (a x : S100000x128.Idx → EReal) (inv : S100000x1.Idx → EReal) (w : S128x128.Idx → EReal) (b : S1x128.Idx → EReal)
    (n : Fin 100000) (q : Fin 128) :
    R0 a x inv w b (ix2 n q) = max ((∑ k : Fin 128, ((a (ix2 n k) + x (ix2 n k)) * inv (ix2 n 0)) * w (ix2 k q)) + b (ix2 0 q)) 0 := rfl

section
variable (V : (c : Dev nD) → (b : Ref sig .tc) → Buf (Elt Ideal) ((c : Thread nD τ).loc b))

theorem rd0_0 (c : Dev nD) (t : Fin cfg0.N) (p : Fin 4000) (q : Fin 128) (g : Fin 100000) (hg : g.val = t.val * 4000 + p.val) :
    iblk0 V c 0 t (ix2 p q) = V c main_v18 (ix2 g q) := by
  show V c main_v18 (((cfg0.win 0).blk t).view.emb (ix2 p q)) = _
  rw [emb0_0 t p q g hg]

theorem rd0_1 (c : Dev nD) (t : Fin cfg0.N) (p : Fin 4000) (q : Fin 128) (g : Fin 100000) (hg : g.val = t.val * 4000 + p.val) :
    iblk0 V c 1 t (ix2 p q) = V c main_arg0 (ix2 g q) := by
  show V c main_arg0 (((cfg0.win 1).blk t).view.emb (ix2 p q)) = _
  rw [emb0_1 t p q g hg]

theorem rd0_2 (c : Dev nD) (t : Fin cfg0.N) (p : Fin 4000) (q : Fin 1) (g : Fin 100000) (hg : g.val = t.val * 4000 + p.val) :
    iblk0 V c 2 t (ix2 p q) = V c main_v8 (ix2 g q) := by
  show V c main_v8 (((cfg0.win 2).blk t).view.emb (ix2 p q)) = _
  rw [emb0_2 t p q g hg]

theorem rd0_3 (c : Dev nD) (t : Fin cfg0.N) (p : Fin 128) (q : Fin 128) :
    iblk0 V c 3 t (ix2 p q) = V c main_arg3 (ix2 p q) := by
  show V c main_arg3 (((cfg0.win 3).blk t).view.emb (ix2 p q)) = _
  rw [emb0_3 t p q]

theorem rd0_4 (c : Dev nD) (t : Fin cfg0.N) (p : Fin 1) (q : Fin 128) :
    iblk0 V c 4 t (ix2 p q) = V c main_v19 (ix2 p q) := by
  show V c main_v19 (((cfg0.win 4).blk t).view.emb (ix2 p q)) = _
  rw [emb0_4 t p q]

/-- What point t writes back is block t of the whole-array function of the arrays the launch finds. -/
theorem flushed0_eq (c : Dev nD) (t : Fin cfg0.N) :
    (dat0 V c).flushed 5 t = ((cfg0.win 5).blk t).view.read (Elt Ideal) (R0 (V c main_v18) (V c main_arg0) (V c main_v8) (V c main_arg3) (V c main_v19)) := by
  show (cfg0.win 5).cut (grid0.coords t) ((dat0 V c).after 5 t) = _
  rw [after0_5]
  unfold out0_5
  rw [View.canon_unit_zero hz]
  simp only [View.ld_unit_zero (S := S4000x128) hz, View.ld_unit_zero (S := S4000x1) hz, View.ld_unit_zero (S := S128x128) hz, View.ld_unit_zero (S := S1x128) hz]
  funext y
  obtain ⟨p, q, rfl⟩ : ∃ (p : Fin 4000) (q : Fin 128), y = ix2 p q := ⟨y 0, y 1, eq_ix2 y⟩
  have ht : t.val < 25 := by have h := t.isLt; have e : cfg0.N = 25 := N_0; omega
  have hgl : t.val * 4000 + p.val < 100000 := by have := p.isLt; omega
  show k0_pay1 (iblk0 V c 0 t) (iblk0 V c 1 t) (iblk0 V c 2 t) (iblk0 V c 3 t) (iblk0 V c 4 t) (ix2 p q) = R0 (V c main_v18) (V c main_arg0) (V c main_v8) (V c main_arg3) (V c main_v19) (((cfg0.win 5).blk t).view.emb (ix2 p q))
  rw [emb0_5 t p q ⟨t.val * 4000 + p.val, hgl⟩ rfl]
  refine (Pay.k0_apply (iblk0 V c 0 t) (iblk0 V c 1 t) (iblk0 V c 2 t) (iblk0 V c 3 t) (iblk0 V c 4 t) p q).trans ?_
  refine Eq.trans ?_ (R0_apply (V c main_v18) (V c main_arg0) (V c main_v8) (V c main_arg3) (V c main_v19) (⟨t.val * 4000 + p.val, hgl⟩ : Fin 100000) q).symm
  rw [rd0_2 V c t p 0 (⟨t.val * 4000 + p.val, hgl⟩ : Fin 100000) rfl, rd0_4 V c t 0 q]
  refine congrArg (max · 0) (congrArg (· + _) (Finset.sum_congr rfl fun k _ => ?_))
  rw [rd0_0 V c t p k (⟨t.val * 4000 + p.val, hgl⟩ : Fin 100000) rfl, rd0_1 V c t p k (⟨t.val * 4000 + p.val, hgl⟩ : Fin 100000) rfl, rd0_3 V c t k q]

/-- An index of the output array is in point t's block iff each coordinate is in the block's range on its axis. -/
theorem mem_blk0 (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v20).slice (win0_5.rect t)).set ↔ _
  rw [View.set_slice_whole, Rect.mem_set_unit]
  exact Iff.rfl

/-- The 25 blocks of 4000 rows tile the 100,000 rows: row r is in the block of point r / 4000. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 4000 < cfg0.N := by have e : cfg0.N = 25 := N_0; omega
  refine ⟨⟨(i 0).val / 4000, hN⟩, flush0_5 _, ?_⟩
  rw [mem_blk0]
  obtain ⟨e0a, e0b, e1a, e1b, e2a, e2b, e3a, e3b, e4a, e4b, e5a, e5b⟩ := idx_facts0 ⟨(i 0).val / 4000, hN⟩
  intro a
  match a with
  | ⟨0, _⟩ =>
    show win0_5.index ⟨(i 0).val / 4000, hN⟩ (0 : Fin 2) * 4000 ≤ (i 0).val ∧ (i 0).val < win0_5.index ⟨(i 0).val / 4000, hN⟩ (0 : Fin 2) * 4000 + 4000
    rw [e5a]
    show (i 0).val / 4000 * 4000 ≤ (i 0).val ∧ (i 0).val < (i 0).val / 4000 * 4000 + 4000
    omega
  | ⟨1, _⟩ =>
    show win0_5.index ⟨(i 0).val / 4000, hN⟩ (1 : Fin 2) * 128 ≤ (i 1).val ∧ (i 1).val < win0_5.index ⟨(i 0).val / 4000, hN⟩ (1 : Fin 2) * 128 + 128
    omega

/-- After the launch the output array is the whole-array function of the arrays the launch found. -/
theorem final0 (c : Dev nD) : (dat0 V c).arrAt 5 cfg0.N = R0 (V c main_v18) (V c main_arg0) (V c main_v8) (V c main_arg3) (V c main_v19) :=
  (dat0 V c).arrAt_eq_of_cover 5 _ (fun t _ => flushed0_eq V c t) cover0

end

/-! ## Launch 1 -/

/-- The printed index maps over the 25 grid points: a row-tiled window is at block (t, 0), a resident one at (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, q) of window 0's block at point t sits in its array at row t·4000 + p, column q. -/
theorem emb1_0 (t : Fin cfg1.N) (p : Fin 4000) (q : Fin 128) (g : Fin 100000) (hg : g.val = t.val * 4000 + p.val) :
    ((cfg1.win 0).blk t).view.emb (ix2 p q) = (ix2 g q : S100000x128.Idx) := by
  obtain ⟨e0a, e0b, e1a, e1b, e2a, e2b⟩ := idx_facts1 t
  funext a; apply Fin.ext
  match a with
  | ⟨0, _⟩ => show win1_0.index t (0 : Fin 2) * 4000 + 1 * p.val = g.val; omega
  | ⟨1, _⟩ => show win1_0.index t (1 : Fin 2) * 128 + 1 * q.val = q.val; omega

/-- Window 1's block is its whole array at every point. -/
theorem emb1_1 (t : Fin cfg1.N) (p : Fin 128) (q : Fin 64) :
    ((cfg1.win 1).blk t).view.emb (ix2 p q) = (ix2 p q : S128x64.Idx) := by
  obtain ⟨e0a, e0b, e1a, e1b, e2a, e2b⟩ := idx_facts1 t
  funext a; apply Fin.ext
  match a with
  | ⟨0, _⟩ => show win1_1.index t (0 : Fin 2) * 128 + 1 * p.val = p.val; omega
  | ⟨1, _⟩ => show win1_1.index t (1 : Fin 2) * 64 + 1 * q.val = q.val; omega

/-- Entry (p, q) of window 2's block at point t sits in its array at row t·4000 + p, column q. -/
theorem emb1_2 (t : Fin cfg1.N) (p : Fin 4000) (q : Fin 64) (g : Fin 100000) (hg : g.val = t.val * 4000 + p.val) :
    ((cfg1.win 2).blk t).view.emb (ix2 p q) = (ix2 g q : S100000x64.Idx) := by
  obtain ⟨e0a, e0b, e1a, e1b, e2a, e2b⟩ := idx_facts1 t
  funext a; apply Fin.ext
  match a with
  | ⟨0, _⟩ => show win1_2.index t (0 : Fin 2) * 4000 + 1 * p.val = g.val; omega
  | ⟨1, _⟩ => show win1_2.index t (1 : Fin 2) * 64 + 1 * q.val = q.val; omega

/-- The second launch's output: row n of h times column q of w. -/
def R1 (h : S100000x128.Idx → EReal) (w : S128x64.Idx → EReal) : S100000x64.Idx → EReal :=
  fun i => (fun (n : Fin 100000) (q : Fin 64) => ∑ k : Fin 128, h (ix2 n k) * w (ix2 k q)) (i 0) (i 1)

theorem R1_apply (h : S100000x128.Idx → EReal) (w : S128x64.Idx → EReal) (n : Fin 100000) (q : Fin 64) :
    R1 h w (ix2 n q) = ∑ k : Fin 128, h (ix2 n k) * w (ix2 k q) := rfl

section
variable (V : (c : Dev nD) → (b : Ref sig .tc) → Buf (Elt Ideal) ((c : Thread nD τ).loc b))

theorem rd1_0 (c : Dev nD) (t : Fin cfg1.N) (p : Fin 4000) (q : Fin 128) (g : Fin 100000) (hg : g.val = t.val * 4000 + p.val) :
    iblk1 V c 0 t (ix2 p q) = V c main_v20 (ix2 g q) := by
  show V c main_v20 (((cfg1.win 0).blk t).view.emb (ix2 p q)) = _
  rw [emb1_0 t p q g hg]

theorem rd1_1 (c : Dev nD) (t : Fin cfg1.N) (p : Fin 128) (q : Fin 64) :
    iblk1 V c 1 t (ix2 p q) = V c main_arg5 (ix2 p q) := by
  show V c main_arg5 (((cfg1.win 1).blk t).view.emb (ix2 p q)) = _
  rw [emb1_1 t p q]

/-- What point t writes back is block t of the whole-array function of the arrays the launch finds. -/
theorem flushed1_eq (c : Dev nD) (t : Fin cfg1.N) :
    (dat1 V c).flushed 2 t = ((cfg1.win 2).blk t).view.read (Elt Ideal) (R1 (V c main_v20) (V c main_arg5)) := by
  show (cfg1.win 2).cut (grid1.coords t) ((dat1 V c).after 2 t) = _
  rw [after1_2]
  unfold out1_2
  rw [View.canon_unit_zero hz]
  simp only [View.ld_unit_zero (S := S4000x128) hz, View.ld_unit_zero (S := S128x64) hz]
  funext y
  obtain ⟨p, q, rfl⟩ : ∃ (p : Fin 4000) (q : Fin 64), y = ix2 p q := ⟨y 0, y 1, eq_ix2 y⟩
  have ht : t.val < 25 := by have h := t.isLt; have e : cfg1.N = 25 := N_1; omega
  have hgl : t.val * 4000 + p.val < 100000 := by have := p.isLt; omega
  show k1_pay1 (iblk1 V c 0 t) (iblk1 V c 1 t) (ix2 p q) = R1 (V c main_v20) (V c main_arg5) (((cfg1.win 2).blk t).view.emb (ix2 p q))
  rw [emb1_2 t p q ⟨t.val * 4000 + p.val, hgl⟩ rfl]
  refine (Pay.k1_apply (iblk1 V c 0 t) (iblk1 V c 1 t) p q).trans ?_
  refine Eq.trans ?_ (R1_apply (V c main_v20) (V c main_arg5) (⟨t.val * 4000 + p.val, hgl⟩ : Fin 100000) q).symm
  refine Finset.sum_congr rfl fun k _ => ?_
  rw [rd1_0 V c t p k (⟨t.val * 4000 + p.val, hgl⟩ : Fin 100000) rfl, rd1_1 V c t k q]

/-- An index of the output array is in point t's block iff each coordinate is in the block's range on its axis. -/
theorem mem_blk1 (t : Fin cfg1.N) (i : S100000x64.Idx) :
    i ∈ ((cfg1.win 2).blk t).view.set ↔ ∀ a : Fin 2, win1_2.index t a * S4000x64.size a ≤ (i a).val ∧ (i a).val < win1_2.index t a * S4000x64.size a + S4000x64.size a := by
  show i ∈ ((View.whole main_v21).slice (win1_2.rect t)).set ↔ _
  rw [View.set_slice_whole, Rect.mem_set_unit]
  exact Iff.rfl

/-- The 25 blocks of 4000 rows tile the 100,000 rows: row r is in the block of point r / 4000. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : (i 0).val / 4000 < cfg1.N := by have e : cfg1.N = 25 := N_1; omega
  refine ⟨⟨(i 0).val / 4000, hN⟩, flush1_2 _, ?_⟩
  rw [mem_blk1]
  obtain ⟨e0a, e0b, e1a, e1b, e2a, e2b⟩ := idx_facts1 ⟨(i 0).val / 4000, hN⟩
  intro a
  match a with
  | ⟨0, _⟩ =>
    show win1_2.index ⟨(i 0).val / 4000, hN⟩ (0 : Fin 2) * 4000 ≤ (i 0).val ∧ (i 0).val < win1_2.index ⟨(i 0).val / 4000, hN⟩ (0 : Fin 2) * 4000 + 4000
    rw [e2a]
    show (i 0).val / 4000 * 4000 ≤ (i 0).val ∧ (i 0).val < (i 0).val / 4000 * 4000 + 4000
    omega
  | ⟨1, _⟩ =>
    show win1_2.index ⟨(i 0).val / 4000, hN⟩ (1 : Fin 2) * 64 ≤ (i 1).val ∧ (i 1).val < win1_2.index ⟨(i 0).val / 4000, hN⟩ (1 : Fin 2) * 64 + 64
    omega

/-- After the launch the output array is the whole-array function of the arrays the launch found. -/
theorem final1 (c : Dev nD) : (dat1 V c).arrAt 2 cfg1.N = R1 (V c main_v20) (V c main_arg5) :=
  (dat1 V c).arrAt_eq_of_cover 2 _ (fun t _ => flushed1_eq V c t) cover1

end

/-! ## Launch 2 -/

/-- The printed index maps over the 25 grid points: a row-tiled window is at block (t, 0), a resident one at (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Entry (p, q) of window 0's block at point t sits in its array at row t·4000 + p, column q. -/
theorem emb2_0 (t : Fin cfg2.N) (p : Fin 4000) (q : Fin 64) (g : Fin 100000) (hg : g.val = t.val * 4000 + p.val) :
    ((cfg2.win 0).blk t).view.emb (ix2 p q) = (ix2 g q : S100000x64.Idx) := by
  obtain ⟨e0a, e0b, e1a, e1b, e2a, e2b, e3a, e3b, e4a, e4b⟩ := idx_facts2 t
  funext a; apply Fin.ext
  match a with
  | ⟨0, _⟩ => show win2_0.index t (0 : Fin 2) * 4000 + 1 * p.val = g.val; omega
  | ⟨1, _⟩ => show win2_0.index t (1 : Fin 2) * 64 + 1 * q.val = q.val; omega

/-- Entry (p, q) of window 1's block at point t sits in its array at row t·4000 + p, column q. -/
theorem emb2_1 (t : Fin cfg2.N) (p : Fin 4000) (q : Fin 64) (g : Fin 100000) (hg : g.val = t.val * 4000 + p.val) :
    ((cfg2.win 1).blk t).view.emb (ix2 p q) = (ix2 g q : S100000x64.Idx) := by
  obtain ⟨e0a, e0b, e1a, e1b, e2a, e2b, e3a, e3b, e4a, e4b⟩ := idx_facts2 t
  funext a; apply Fin.ext
  match a with
  | ⟨0, _⟩ => show win2_1.index t (0 : Fin 2) * 4000 + 1 * p.val = g.val; omega
  | ⟨1, _⟩ => show win2_1.index t (1 : Fin 2) * 64 + 1 * q.val = q.val; omega

/-- Entry (p, q) of window 2's block at point t sits in its array at row t·4000 + p, column q. -/
theorem emb2_2 (t : Fin cfg2.N) (p : Fin 4000) (q : Fin 1) (g : Fin 100000) (hg : g.val = t.val * 4000 + p.val) :
    ((cfg2.win 2).blk t).view.emb (ix2 p q) = (ix2 g q : S100000x1.Idx) := by
  obtain ⟨e0a, e0b, e1a, e1b, e2a, e2b, e3a, e3b, e4a, e4b⟩ := idx_facts2 t
  funext a; apply Fin.ext
  match a with
  | ⟨0, _⟩ => show win2_2.index t (0 : Fin 2) * 4000 + 1 * p.val = g.val; omega
  | ⟨1, _⟩ => show win2_2.index t (1 : Fin 2) * 1 + 1 * q.val = q.val; omega

/-- Window 3's block is its whole array at every point. -/
theorem emb2_3 (t : Fin cfg2.N) (p : Fin 1) (q : Fin 64) :
    ((cfg2.win 3).blk t).view.emb (ix2 p q) = (ix2 p q : S1x64.Idx) := by
  obtain ⟨e0a, e0b, e1a, e1b, e2a, e2b, e3a, e3b, e4a, e4b⟩ := idx_facts2 t
  funext a; apply Fin.ext
  match a with
  | ⟨0, _⟩ => show win2_3.index t (0 : Fin 2) * 1 + 1 * p.val = p.val; omega
  | ⟨1, _⟩ => show win2_3.index t (1 : Fin 2) * 64 + 1 * q.val = q.val; omega

/-- Entry (p, q) of window 4's block at point t sits in its array at row t·4000 + p, column q. -/
theorem emb2_4 (t : Fin cfg2.N) (p : Fin 4000) (q : Fin 64) (g : Fin 100000) (hg : g.val = t.val * 4000 + p.val) :
    ((cfg2.win 4).blk t).view.emb (ix2 p q) = (ix2 g q : S100000x64.Idx) := by
  obtain ⟨e0a, e0b, e1a, e1b, e2a, e2b, e3a, e3b, e4a, e4b⟩ := idx_facts2 t
  funext a; apply Fin.ext
  match a with
  | ⟨0, _⟩ => show win2_4.index t (0 : Fin 2) * 4000 + 1 * p.val = g.val; omega
  | ⟨1, _⟩ => show win2_4.index t (1 : Fin 2) * 64 + 1 * q.val = q.val; omega

/-- The third launch's output: (a + z) at (n, q) times inv's entry for row n, plus b's entry for column q. -/
def R2 (a z : S100000x64.Idx → EReal) (inv : S100000x1.Idx → EReal) (b : S1x64.Idx → EReal) : S100000x64.Idx → EReal :=
  fun i => (fun (n : Fin 100000) (q : Fin 64) => (a (ix2 n q) + z (ix2 n q)) * inv (ix2 n 0) + b (ix2 0 q)) (i 0) (i 1)

theorem R2_apply (a z : S100000x64.Idx → EReal) (inv : S100000x1.Idx → EReal) (b : S1x64.Idx → EReal) (n : Fin 100000) (q : Fin 64) :
    R2 a z inv b (ix2 n q) = (a (ix2 n q) + z (ix2 n q)) * inv (ix2 n 0) + b (ix2 0 q) := rfl

section
variable (V : (c : Dev nD) → (b : Ref sig .tc) → Buf (Elt Ideal) ((c : Thread nD τ).loc b))

theorem rd2_0 (c : Dev nD) (t : Fin cfg2.N) (p : Fin 4000) (q : Fin 64) (g : Fin 100000) (hg : g.val = t.val * 4000 + p.val) :
    iblk2 V c 0 t (ix2 p q) = V c main_v31 (ix2 g q) := by
  show V c main_v31 (((cfg2.win 0).blk t).view.emb (ix2 p q)) = _
  rw [emb2_0 t p q g hg]

theorem rd2_1 (c : Dev nD) (t : Fin cfg2.N) (p : Fin 4000) (q : Fin 64) (g : Fin 100000) (hg : g.val = t.val * 4000 + p.val) :
    iblk2 V c 1 t (ix2 p q) = V c main_v21 (ix2 g q) := by
  show V c main_v21 (((cfg2.win 1).blk t).view.emb (ix2 p q)) = _
  rw [emb2_1 t p q g hg]

theorem rd2_2 (c : Dev nD) (t : Fin cfg2.N) (p : Fin 4000) (q : Fin 1) (g : Fin 100000) (hg : g.val = t.val * 4000 + p.val) :
    iblk2 V c 2 t (ix2 p q) = V c main_v8 (ix2 g q) := by
  show V c main_v8 (((cfg2.win 2).blk t).view.emb (ix2 p q)) = _
  rw [emb2_2 t p q g hg]

theorem rd2_3 (c : Dev nD) (t : Fin cfg2.N) (p : Fin 1) (q : Fin 64) :
    iblk2 V c 3 t (ix2 p q) = V c main_v32 (ix2 p q) := by
  show V c main_v32 (((cfg2.win 3).blk t).view.emb (ix2 p q)) = _
  rw [emb2_3 t p q]

/-- What point t writes back is block t of the whole-array function of the arrays the launch finds. -/
theorem flushed2_eq (c : Dev nD) (t : Fin cfg2.N) :
    (dat2 V c).flushed 4 t = ((cfg2.win 4).blk t).view.read (Elt Ideal) (R2 (V c main_v31) (V c main_v21) (V c main_v8) (V c main_v32)) := by
  show (cfg2.win 4).cut (grid2.coords t) ((dat2 V c).after 4 t) = _
  rw [after2_4]
  unfold out2_4
  rw [View.canon_unit_zero hz]
  simp only [View.ld_unit_zero (S := S4000x64) hz, View.ld_unit_zero (S := S4000x1) hz, View.ld_unit_zero (S := S1x64) hz]
  funext y
  obtain ⟨p, q, rfl⟩ : ∃ (p : Fin 4000) (q : Fin 64), y = ix2 p q := ⟨y 0, y 1, eq_ix2 y⟩
  have ht : t.val < 25 := by have h := t.isLt; have e : cfg2.N = 25 := N_2; omega
  have hgl : t.val * 4000 + p.val < 100000 := by have := p.isLt; omega
  show k2_pay1 (iblk2 V c 0 t) (iblk2 V c 1 t) (iblk2 V c 2 t) (iblk2 V c 3 t) (ix2 p q) = R2 (V c main_v31) (V c main_v21) (V c main_v8) (V c main_v32) (((cfg2.win 4).blk t).view.emb (ix2 p q))
  rw [emb2_4 t p q ⟨t.val * 4000 + p.val, hgl⟩ rfl]
  refine (Pay.k2_apply (iblk2 V c 0 t) (iblk2 V c 1 t) (iblk2 V c 2 t) (iblk2 V c 3 t) p q).trans ?_
  refine Eq.trans ?_ (R2_apply (V c main_v31) (V c main_v21) (V c main_v8) (V c main_v32) (⟨t.val * 4000 + p.val, hgl⟩ : Fin 100000) q).symm
  rw [rd2_0 V c t p q (⟨t.val * 4000 + p.val, hgl⟩ : Fin 100000) rfl, rd2_1 V c t p q (⟨t.val * 4000 + p.val, hgl⟩ : Fin 100000) rfl, rd2_2 V c t p 0 (⟨t.val * 4000 + p.val, hgl⟩ : Fin 100000) rfl, rd2_3 V c t 0 q]

/-- An index of the output array is in point t's block iff each coordinate is in the block's range on its axis. -/
theorem mem_blk2 (t : Fin cfg2.N) (i : S100000x64.Idx) :
    i ∈ ((cfg2.win 4).blk t).view.set ↔ ∀ a : Fin 2, win2_4.index t a * S4000x64.size a ≤ (i a).val ∧ (i a).val < win2_4.index t a * S4000x64.size a + S4000x64.size a := by
  show i ∈ ((View.whole main_v33).slice (win2_4.rect t)).set ↔ _
  rw [View.set_slice_whole, Rect.mem_set_unit]
  exact Iff.rfl

/-- The 25 blocks of 4000 rows tile the 100,000 rows: row r is in the block of point r / 4000. -/
theorem cover2 (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  have hN : (i 0).val / 4000 < cfg2.N := by have e : cfg2.N = 25 := N_2; omega
  refine ⟨⟨(i 0).val / 4000, hN⟩, flush2_4 _, ?_⟩
  rw [mem_blk2]
  obtain ⟨e0a, e0b, e1a, e1b, e2a, e2b, e3a, e3b, e4a, e4b⟩ := idx_facts2 ⟨(i 0).val / 4000, hN⟩
  intro a
  match a with
  | ⟨0, _⟩ =>
    show win2_4.index ⟨(i 0).val / 4000, hN⟩ (0 : Fin 2) * 4000 ≤ (i 0).val ∧ (i 0).val < win2_4.index ⟨(i 0).val / 4000, hN⟩ (0 : Fin 2) * 4000 + 4000
    rw [e4a]
    show (i 0).val / 4000 * 4000 ≤ (i 0).val ∧ (i 0).val < (i 0).val / 4000 * 4000 + 4000
    omega
  | ⟨1, _⟩ =>
    show win2_4.index ⟨(i 0).val / 4000, hN⟩ (1 : Fin 2) * 64 ≤ (i 1).val ∧ (i 1).val < win2_4.index ⟨(i 0).val / 4000, hN⟩ (1 : Fin 2) * 64 + 64
    omega

/-- After the launch the output array is the whole-array function of the arrays the launch found. -/
theorem final2 (c : Dev nD) : (dat2 V c).arrAt 4 cfg2.N = R2 (V c main_v31) (V c main_v21) (V c main_v8) (V c main_v32) :=
  (dat2 V c).arrAt_eq_of_cover 4 _ (fun t _ => flushed2_eq V c t) cover2

end

end Cert.KernelIdeal.RegionValue

end
-- ==== Proof.KernelValue.lean ====
/-
  The idealized kernel program's result, entry by entry, as the two-layer neighbourhood-mean network in the
  arrangement that multiplies by the reciprocal of the degree and projects before it aggregates in the second layer.
  The program's five segments are read in order: the first host stretch builds the neighbour sums of the input rows,
  the reciprocal degree column and the bias row; the first launch forms the hidden rows; the second launch projects
  them to 64 columns; the second host stretch builds the neighbour sums of the projected rows; the third launch adds,
  scales and adds the second bias.
-/
import proofs.«102022_j7086696038727_2_alg».proof.Proof.Spec
import proofs.«102022_j7086696038727_2_alg».proof.Proof.LibRowGatherScatter
import proofs.«102022_j7086696038727_2_alg».proof.Proof.HostReads
import proofs.«102022_j7086696038727_2_alg».proof.Proof.RegionValue
import proofs.«102022_j7086696038727_2_alg».proof.Proof.KernelRun
import Idealize.ShloMosaic.Lib.Pipeline.Value
import Idealize.ShloMosaic.Lib.IdealHost
import Idealize.ShloMosaic.PureOps.Ideal.Laws

set_option maxRecDepth 16384

noncomputable section

namespace Cert.KernelIdeal.KernelValue

open Cert.KernelIdeal Cert.KernelIdeal.Gen Cert.KernelIdeal.HostReads Cert.KernelIdeal.RegionValue Cert.Sage Cert.RowOps
open Idealize.ShloMosaic Idealize.ShloMosaic.ValueIdx Idealize.ShloMosaic.TcCoe Idealize.SL.Sem

/-! ## Constants, and an aggregate, read at an index -/

/-- The zero constant broadcast to any shape reads the extended real zero everywhere. -/
theorem zeros_apply {T : Shape} (h : S_.BroadcastsInDim T ![]) (j : T.Idx) :
    broadcastInDim T ![] h (constant (F := Ideal) S_ .f32 0x00000000#32) j = 0 := by
  show Ideal.ofBits .f32 0x00000000#32 = 0
  exact Ideal.ofBits_zero_f32

/-- The one constant broadcast to any shape reads the extended real one everywhere. -/
theorem ones_apply {T : Shape} (h : S_.BroadcastsInDim T ![]) (j : T.Idx) :
    broadcastInDim T ![] h (constant (F := Ideal) S_ .f32 0x3F800000#32) j = 1 := by
  show Ideal.ofBits .f32 0x3F800000#32 = 1
  exact Ideal.ofBits_one_f32

/-- Rows gathered at the source nodes and scatter-added at the destination nodes into an array of zeros: entry
    \`(n, k)\` is the aggregate of the rows' entries over the edges into \`n\`. The dimension numbers are any that are
    the row scatter's and the row gather's. -/
theorem aggr_read {C : Nat}
    (swf : ScatterDims.WF ⟨2, ![100000, C]⟩ ⟨2, ![1600000, 1]⟩ ⟨2, ![1600000, C]⟩ [1] [0] [0] 1)
    (gwf : GatherDims.WF ⟨2, ![100000, C]⟩ ⟨2, ![1600000, 1]⟩ ⟨2, ![1600000, C]⟩ [1] [0] [] [0] [] 1 ![1, C])
    (d : ScatterDims ⟨2, ![100000, C]⟩ ⟨2, ![1600000, 1]⟩ ⟨2, ![1600000, C]⟩) (hd : d = rowScatterDims 100000 1600000 C swf)
    (g : GatherDims ⟨2, ![100000, C]⟩ ⟨2, ![1600000, 1]⟩ ⟨2, ![1600000, C]⟩) (hg : g = rowGatherDims 100000 1600000 C gwf)
    (zero h : (⟨2, ![100000, C]⟩ : Shape).Idx → EReal) (hzero : ∀ i, zero i = 0)
    (sidx didx : IVec ⟨2, ![1600000, 1]⟩ 32) (n : Fin 100000) (k : Fin C) :
    Host.scatterAdd (F := Ideal) (φ := .f32) d zero didx (Host.gather g h sidx) (ix2 n k)
      = aggr sidx didx (fun n k => h (ix2 n k)) n k := by
  subst hd hg
  refine Eq.trans (b := Ideal.hostScatterAdd (rowScatterDims 100000 1600000 C swf) zero didx
    (Host.gather (rowGatherDims 100000 1600000 C gwf) h sidx) (ix2 n k)) rfl ?_
  refine (rowScatterAdd_apply swf zero didx _ n k).trans ?_
  rw [hzero]
  unfold aggr edges srcRow
  refine congrArg (0 + ·) (Finset.sum_congr rfl fun e _ => ?_)
  exact rowGather_apply (by decide) gwf h sidx e k

variable (m : (ℓ : Loc nD τ sig) → Buf (Elt Ideal) ℓ) (ρ : Dev nD → PrngReg)

/-! ## The degree -/

/-- The number of edges into node \`n\`, plus one, as the program computes it: ones scatter-added at the destination
    nodes into zeros, plus one. -/
def dpK (c : Dev nD) (n : Fin 100000) : EReal :=
  (addf
    (Host.scatterAdd scatter_S100000_S1600000x1_S1600000_n_0_0_1
      (broadcastInDim S100000 ![] bcast_S_S100000 (constant (F := Ideal) S_ .f32 0x00000000#32))
      (idxD m c)
      (broadcastInDim S1600000 ![] bcast_S_S1600000 (constant (F := Ideal) S_ .f32 0x3F800000#32)))
    (broadcastInDim S100000 ![] bcast_S_S100000 (constant (F := Ideal) S_ .f32 0x3F800000#32))
    : (⟨S100000, .f32⟩ : BufTy).Contents (Elt Ideal)) (ix1 n)

/-- The launch contents of the five float arguments, by coordinates: the input rows, the two layers' weights and
    biases. -/
abbrev xF (c : Dev nD) : Fin 100000 → Fin 128 → EReal :=
  fun n k => (m ((c : Thread nD τ).loc main_arg0) : S100000x128.Idx → EReal) (ix2 n k)
abbrev w1F (c : Dev nD) : Fin 128 → Fin 128 → EReal :=
  fun i k => (m ((c : Thread nD τ).loc main_arg3) : S128x128.Idx → EReal) (ix2 i k)
abbrev b1F (c : Dev nD) : Fin 128 → EReal :=
  fun k => (m ((c : Thread nD τ).loc main_arg4) : S128.Idx → EReal) (ix1 k)
abbrev w2F (c : Dev nD) : Fin 128 → Fin 64 → EReal :=
  fun k j => (m ((c : Thread nD τ).loc main_arg5) : S128x64.Idx → EReal) (ix2 k j)
abbrev b2F (c : Dev nD) : Fin 64 → EReal :=
  fun j => (m ((c : Thread nD τ).loc main_arg6) : S64.Idx → EReal) (ix1 j)

/-! ## The first host stretch, entry by entry -/

/-- The degree column at row \`r\` is the reciprocal of the degree. -/
theorem inv_apply (c : Dev nD) (r : Fin 100000) :
    V1 m ρ c main_v8 (ix2 r 0) = Ideal.div 1 (dpK m c r) := by
  refine (congrFun (V1_v8 m ρ c) (ix2 r 0)).trans ?_
  refine (shapeCast_apply _ shapeCasts_S100000_S100000x1 (ix2 r 0) (ix1 r) ?_).trans ?_
  · rw [Shape.rowMajor_val_one, Shape.rowMajor_val_two]
    show r.val = r.val * 1 + 0
    omega
  · refine (hostDivf_apply _ _ (ix1 r)).trans ?_
    rw [ones_apply]
    rfl

/-- The bias row at column \`k\` is the first bias's entry \`k\`. -/
theorem b1_apply (c : Dev nD) (k : Fin 128) :
    V1 m ρ c main_v19 (ix2 0 k) = (m ((c : Thread nD τ).loc main_arg4) : S128.Idx → EReal) (ix1 k) := by
  refine (congrFun (V1_v19 m ρ c) (ix2 0 k)).trans ?_
  refine shapeCast_apply _ shapeCasts_S128_S1x128 (ix2 0 k) (ix1 k) ?_
  rw [Shape.rowMajor_val_one, Shape.rowMajor_val_two]
  show k.val = 0 * 128 + k.val
  omega

/-- The neighbour sums of the input rows. -/
theorem agg1_apply (c : Dev nD) (r : Fin 100000) (i : Fin 128) :
    V1 m ρ c main_v18 (ix2 r i)
      = aggr (idxS m c) (idxD m c)
          (fun n k => (m ((c : Thread nD τ).loc main_arg0) : S100000x128.Idx → EReal) (ix2 n k)) r i := by
  refine (congrFun (V1_v18 m ρ c) (ix2 r i)).trans ?_
  exact aggr_read (C := 128) scatter_S100000x128_S1600000x1_S1600000x128_1_0_0_1_wf
    gather_S100000x128_S1600000x1_S1600000x128_1_0_n_n_0_1_1128_wf
    scatter_S100000x128_S1600000x1_S1600000x128_1_0_0_1 rfl
    gather_S100000x128_S1600000x1_S1600000x128_1_0_n_n_0_1_1128 rfl
    _ _ (fun i => zeros_apply _ i) (idxS m c) (idxD m c) r i

/-! ## The three launches -/

/-- The first launch's output is the hidden layer. -/
theorem hidden_apply (c : Dev nD) (r : Fin 100000) (k : Fin 128) :
    V2 m ρ c main_v20 (ix2 r k)
      = hidK (idxS m c) (idxD m c)
          (fun n k => (m ((c : Thread nD τ).loc main_arg0) : S100000x128.Idx → EReal) (ix2 n k))
          (fun i k => (m ((c : Thread nD τ).loc main_arg3) : S128x128.Idx → EReal) (ix2 i k))
          (fun k => (m ((c : Thread nD τ).loc main_arg4) : S128.Idx → EReal) (ix1 k))
          (dpK m c) r k := by
  refine (congrFun ((V2_v20 m ρ c).trans (final0 (V1 m ρ) c)) (ix2 r k)).trans ?_
  refine (R0_apply _ _ _ _ _ r k).trans ?_
  unfold hidK
  rw [inv_apply m ρ c r, b1_apply m ρ c k, V1_arg0 m ρ c, V1_arg3 m ρ c]
  exact congrArg (fun g : Fin 128 → EReal =>
      max ((∑ i : Fin 128, ((g i + xF m c r i) * Ideal.div 1 (dpK m c r)) * w1F m c i k) + b1F m c k) 0)
    (funext fun i => agg1_apply m ρ c r i)

/-- The second launch's output is the hidden layer projected to 64 columns. -/
theorem projected_apply (c : Dev nD) (r : Fin 100000) (j : Fin 64) :
    V3 m ρ c main_v21 (ix2 r j)
      = proj (hidK (idxS m c) (idxD m c)
          (fun n k => (m ((c : Thread nD τ).loc main_arg0) : S100000x128.Idx → EReal) (ix2 n k))
          (fun i k => (m ((c : Thread nD τ).loc main_arg3) : S128x128.Idx → EReal) (ix2 i k))
          (fun k => (m ((c : Thread nD τ).loc main_arg4) : S128.Idx → EReal) (ix1 k))
          (dpK m c))
          (fun k j => (m ((c : Thread nD τ).loc main_arg5) : S128x64.Idx → EReal) (ix2 k j)) r j := by
  refine (congrFun ((V3_v21 m ρ c).trans (final1 (V2 m ρ) c)) (ix2 r j)).trans ?_
  refine (R1_apply _ _ r j).trans ?_
  unfold proj
  rw [V2_arg5 m ρ c]
  exact congrArg (fun g : Fin 128 → EReal => ∑ k : Fin 128, g k * w2F m c k j)
    (funext fun k => hidden_apply m ρ c r k)

/-! ## The second host stretch, entry by entry -/

/-- The neighbour sums of the projected rows. -/
theorem agg2_apply (c : Dev nD) (n : Fin 100000) (j : Fin 64) :
    V4 m ρ c main_v31 (ix2 n j)
      = aggr (idxS m c) (idxD m c) (fun n j => V3 m ρ c main_v21 (ix2 n j)) n j := by
  refine (congrFun (V4_v31 m ρ c) (ix2 n j)).trans ?_
  exact aggr_read (C := 64) scatter_S100000x64_S1600000x1_S1600000x64_1_0_0_1_wf
    gather_S100000x64_S1600000x1_S1600000x64_1_0_n_n_0_1_164_wf
    scatter_S100000x64_S1600000x1_S1600000x64_1_0_0_1 rfl
    gather_S100000x64_S1600000x1_S1600000x64_1_0_n_n_0_1_164 rfl
    _ _ (fun i => zeros_apply _ i) (idxS m c) (idxD m c) n j

/-- The second bias row at column \`j\` is the second bias's entry \`j\`. -/
theorem b2_apply (c : Dev nD) (j : Fin 64) :
    V4 m ρ c main_v32 (ix2 0 j) = (m ((c : Thread nD τ).loc main_arg6) : S64.Idx → EReal) (ix1 j) := by
  refine (congrFun (V4_v32 m ρ c) (ix2 0 j)).trans ?_
  refine shapeCast_apply _ shapeCasts_S64_S1x64 (ix2 0 j) (ix1 j) ?_
  rw [Shape.rowMajor_val_one, Shape.rowMajor_val_two]
  show j.val = 0 * 64 + j.val
  omega

/-! ## The result -/

/-- THE PROGRAM'S RESULT AT \`(n, j)\`: the network's output in the reciprocal-multiplying, project-first arrangement,
    of the launch contents of the seven arguments. -/
theorem kernel_apply (c : Dev nD) (n : Fin 100000) (j : Fin 64) :
    W5 m ρ c (Proc.devRef .tc main_v33) (ix2 n j)
      = outK (idxS m c) (idxD m c)
          (fun n k => (m ((c : Thread nD τ).loc main_arg0) : S100000x128.Idx → EReal) (ix2 n k))
          (fun i k => (m ((c : Thread nD τ).loc main_arg3) : S128x128.Idx → EReal) (ix2 i k))
          (fun k => (m ((c : Thread nD τ).loc main_arg4) : S128.Idx → EReal) (ix1 k))
          (fun k j => (m ((c : Thread nD τ).loc main_arg5) : S128x64.Idx → EReal) (ix2 k j))
          (fun j => (m ((c : Thread nD τ).loc main_arg6) : S64.Idx → EReal) (ix1 j))
          (dpK m c) n j := by
  refine (congrFun ((KRun.W5_result m ρ c).trans (final2 (V4 m ρ) c)) (ix2 n j)).trans ?_
  refine (R2_apply _ _ _ _ n j).trans ?_
  unfold outK
  rw [agg2_apply m ρ c n j, b2_apply m ρ c j, V4_v8 m ρ c, inv_apply m ρ c n, V4_v21 m ρ c,
    projected_apply m ρ c n j]
  exact congrArg (fun f : Fin 100000 → Fin 64 → EReal =>
      (aggr (idxS m c) (idxD m c) f n j
          + proj (hidK (idxS m c) (idxD m c) (xF m c) (w1F m c) (b1F m c) (dpK m c)) (w2F m c) n j)
        * Ideal.div 1 (dpK m c n) + b2F m c j)
    (funext fun r => funext fun q => projected_apply m ρ c r q)

end Cert.KernelIdeal.KernelValue

end
-- ==== Proof.Agree.lean ====
/-
  The two programs read the same graph: the gather's start indices, the scatter's destination indices and the
  "edges into a node, plus one" count are the same terms of the source and destination index arrays on both sides.
-/
import proofs.«102022_j7086696038727_2_alg».proof.Proof.RefValue
import proofs.«102022_j7086696038727_2_alg».proof.Proof.KernelValue

noncomputable section

namespace Cert.Proof.Agree

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ) (c : Dev Cert.KernelIdeal.nD)

/-- The source indices, wrapped once when negative and laid out as a column: one term on both sides. -/
theorem sidx_agree :
    Cert.ReferenceIdeal.RefValue.sidxOf (m ((c.tc : Thread Cert.KernelIdeal.nD Cert.KernelIdeal.τ).loc Cert.KernelIdeal.main_arg1))
      = Cert.KernelIdeal.HostReads.idxS m c := rfl

/-- The destination indices laid out as a column: one term on both sides. -/
theorem didx_agree :
    Cert.ReferenceIdeal.RefValue.didxOf (m ((c.tc : Thread Cert.KernelIdeal.nD Cert.KernelIdeal.τ).loc Cert.KernelIdeal.main_arg2))
      = Cert.KernelIdeal.HostReads.idxD m c := rfl

/-- The rank-one scatter's dimension numbers are the same record in both programs. -/
theorem d1_agree : Cert.ReferenceIdeal.scatter_S100000_S1600000x1_S1600000_n_0_0_1 = Cert.KernelIdeal.scatter_S100000_S1600000x1_S1600000_n_0_0_1 := rfl

theorem zeros_agree : (Cert.ReferenceIdeal.Read.val_main_v11 (F := Ideal)) = (broadcastInDim Cert.KernelIdeal.S100000 ![] Cert.KernelIdeal.Facts₀.bcast_S_S100000 (constant (F := Ideal) Cert.KernelIdeal.S_ .f32 0x00000000#32)) := rfl
theorem didx1_agree : (Cert.ReferenceIdeal.Read.val_main_v12 (F := Ideal) (m ((c.tc : Thread Cert.KernelIdeal.nD Cert.KernelIdeal.τ).loc Cert.KernelIdeal.main_arg2))) = (Cert.KernelIdeal.HostReads.idxD m c) := rfl
theorem ones_agree : (Cert.ReferenceIdeal.Read.val_main_v10 (F := Ideal)) = (broadcastInDim Cert.KernelIdeal.S1600000 ![] Cert.KernelIdeal.Facts₀.bcast_S_S1600000 (constant (F := Ideal) Cert.KernelIdeal.S_ .f32 0x3F800000#32)) := rfl

/-- The degree array (a scatter-add of ones onto zeros at the destination indices) is one term on both sides. -/
theorem deg_agree : (Cert.ReferenceIdeal.Read.val_main_v13 (F := Ideal) (m ((c.tc : Thread Cert.KernelIdeal.nD Cert.KernelIdeal.τ).loc Cert.KernelIdeal.main_arg2))) = (Host.scatterAdd (F := Ideal) (φ := .f32) Cert.KernelIdeal.scatter_S100000_S1600000x1_S1600000_n_0_0_1 (broadcastInDim Cert.KernelIdeal.S100000 ![] Cert.KernelIdeal.Facts₀.bcast_S_S100000 (constant (F := Ideal) Cert.KernelIdeal.S_ .f32 0x00000000#32)) (Cert.KernelIdeal.HostReads.idxD m c) (broadcastInDim Cert.KernelIdeal.S1600000 ![] Cert.KernelIdeal.Facts₀.bcast_S_S1600000 (constant (F := Ideal) Cert.KernelIdeal.S_ .f32 0x3F800000#32))) := by
  show (Host.scatterAdd (F := Ideal) (φ := .f32) Cert.ReferenceIdeal.scatter_S100000_S1600000x1_S1600000_n_0_0_1 (Cert.ReferenceIdeal.Read.val_main_v11 (F := Ideal)) (Cert.ReferenceIdeal.Read.val_main_v12 (F := Ideal) (m ((c.tc : Thread Cert.KernelIdeal.nD Cert.KernelIdeal.τ).loc Cert.KernelIdeal.main_arg2))) (Cert.ReferenceIdeal.Read.val_main_v10 (F := Ideal))) = (Host.scatterAdd (F := Ideal) (φ := .f32) Cert.KernelIdeal.scatter_S100000_S1600000x1_S1600000_n_0_0_1 (broadcastInDim Cert.KernelIdeal.S100000 ![] Cert.KernelIdeal.Facts₀.bcast_S_S100000 (constant (F := Ideal) Cert.KernelIdeal.S_ .f32 0x00000000#32)) (Cert.KernelIdeal.HostReads.idxD m c) (broadcastInDim Cert.KernelIdeal.S1600000 ![] Cert.KernelIdeal.Facts₀.bcast_S_S1600000 (constant (F := Ideal) Cert.KernelIdeal.S_ .f32 0x3F800000#32)))
  rw [zeros_agree, didx1_agree m c, ones_agree, d1_agree]

/-- Adding two extended reals as ideal float values is their sum. -/
theorem addf_eq (a b : EReal) : FloatOps.addf (F := Ideal) (φ := .f32) a b = a + b := rfl

/-- The count of edges into node n, plus one: the reference reads it through a column broadcast at (n, 0), the
    kernel program at n; the same scatter-add of ones, plus one. -/
theorem dp_agree (n : Fin 100000) :
    Cert.ReferenceIdeal.RefValue.dpOf (m ((c.tc : Thread Cert.KernelIdeal.nD Cert.KernelIdeal.τ).loc Cert.KernelIdeal.main_arg2)) n = Cert.KernelIdeal.KernelValue.dpK m c n := by
  have e : Cert.ReferenceIdeal.Read.idx_main_v15 (ix2 n 0) = ix1 n :=
    funext fun a => Fin.ext (by match a with | ⟨0, _⟩ => rfl)
  have hl : Cert.ReferenceIdeal.RefValue.dpOf (m ((c.tc : Thread Cert.KernelIdeal.nD Cert.KernelIdeal.τ).loc Cert.KernelIdeal.main_arg2)) n = (Host.scatterAdd (F := Ideal) (φ := .f32) Cert.KernelIdeal.scatter_S100000_S1600000x1_S1600000_n_0_0_1 (broadcastInDim Cert.KernelIdeal.S100000 ![] Cert.KernelIdeal.Facts₀.bcast_S_S100000 (constant (F := Ideal) Cert.KernelIdeal.S_ .f32 0x00000000#32)) (Cert.KernelIdeal.HostReads.idxD m c) (broadcastInDim Cert.KernelIdeal.S1600000 ![] Cert.KernelIdeal.Facts₀.bcast_S_S1600000 (constant (F := Ideal) Cert.KernelIdeal.S_ .f32 0x3F800000#32))) (ix1 n) + 1 := by
    unfold Cert.ReferenceIdeal.RefValue.dpOf
    rw [Cert.ReferenceIdeal.Read.val_main_v17_apply, Cert.ReferenceIdeal.Read.val_main_v15_apply, e, Cert.ReferenceIdeal.RefValue.v16_one, deg_agree m c]
    exact addf_eq _ _
  have hr : Cert.KernelIdeal.KernelValue.dpK m c n = (Host.scatterAdd (F := Ideal) (φ := .f32) Cert.KernelIdeal.scatter_S100000_S1600000x1_S1600000_n_0_0_1 (broadcastInDim Cert.KernelIdeal.S100000 ![] Cert.KernelIdeal.Facts₀.bcast_S_S100000 (constant (F := Ideal) Cert.KernelIdeal.S_ .f32 0x00000000#32)) (Cert.KernelIdeal.HostReads.idxD m c) (broadcastInDim Cert.KernelIdeal.S1600000 ![] Cert.KernelIdeal.Facts₀.bcast_S_S1600000 (constant (F := Ideal) Cert.KernelIdeal.S_ .f32 0x3F800000#32))) (ix1 n) + 1 := by
    unfold Cert.KernelIdeal.KernelValue.dpK
    rw [addf_apply, Cert.KernelIdeal.KernelValue.ones_apply]
  exact hl.trans hr.symm

end Cert.Proof.Agree

end
-- ==== Proof.lean ====
/-
  The certificate of a two-layer neighbourhood-mean graph network (100,000 nodes, 1,600,000 edges, widths
  128 → 128 → 64) computed by three grid launches among host gathers and scatter-adds, against the plain
  array program that computes, layer by layer, ((Σ over the edges into a node of the source rows) + the node's
  own row) / (number of edges into the node + 1), times the layer's weights, plus its bias, with a relu between.

  The kernel program multiplies by the reciprocal 1/(deg + 1) where the reference divides, and in the second layer
  multiplies the hidden rows by the 128 × 64 weights BEFORE aggregating over the edges (the aggregate of the
  products is the product of the aggregate: aggregation is linear), scaling by the reciprocal afterwards. On
  extended reals the two agree where every entry involved is a real number, which the precondition (all float
  inputs finite) gives: the hidden layer is then real too, deg + 1 is a positive real, and the identity is
  distributivity and the exchange of two finite sums over the reals.

  The frames are the generated ones (the reference's is its generated run with the result dropped); the ideal
  pass rewrote nothing, so the preservation conjunct is trivial.
-/
import proofs.«102022_j7086696038727_2_alg».proof.Defs
import proofs.«102022_j7086696038727_2_alg».proof.Proof.Gen.Kernel
import proofs.«102022_j7086696038727_2_alg».proof.Proof.Gen.Kernel.Skeleton
import proofs.«102022_j7086696038727_2_alg».proof.Proof.Gen.Kernel.Launch
import proofs.«102022_j7086696038727_2_alg».proof.Proof.Gen.Kernel.Points
import proofs.«102022_j7086696038727_2_alg».proof.Proof.Gen.Kernel.Frame
import proofs.«102022_j7086696038727_2_alg».proof.Proof.Gen.KernelIdeal
import proofs.«102022_j7086696038727_2_alg».proof.Proof.Gen.KernelIdeal.Skeleton
import proofs.«102022_j7086696038727_2_alg».proof.Proof.Gen.KernelIdeal.Launch
import proofs.«102022_j7086696038727_2_alg».proof.Proof.Gen.KernelIdeal.Points
import proofs.«102022_j7086696038727_2_alg».proof.Proof.Gen.KernelIdeal.Frame
import proofs.«102022_j7086696038727_2_alg».proof.Proof.Gen.ReferenceIdeal
import proofs.«102022_j7086696038727_2_alg».proof.Proof.Gen.ReferenceIdeal.Run
import proofs.«102022_j7086696038727_2_alg».proof.Proof.Gen.ReferenceIdeal.Read
import proofs.«102022_j7086696038727_2_alg».proof.Proof.Gen.Pre_finite_inputs
import proofs.«102022_j7086696038727_2_alg».proof.Proof.KernelRun
import proofs.«102022_j7086696038727_2_alg».proof.Proof.FiniteInputs
import proofs.«102022_j7086696038727_2_alg».proof.Proof.Bridge
import proofs.«102022_j7086696038727_2_alg».proof.Proof.RefValue
import proofs.«102022_j7086696038727_2_alg».proof.Proof.KernelValue
import proofs.«102022_j7086696038727_2_alg».proof.Proof.Agree
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the seven arguments both programs run, and the reference's result array is the
    kernel program's, entry by entry: each is the network's output in its own arrangement, and the two arrangements
    agree on finite inputs. -/
theorem algebraic : Cert.algebraic_KernelIdeal_ReferenceIdeal := by
  intro m ρ m' ρ' hpre hagree
  refine ⟨fun c => Cert.KernelIdeal.Gen.W5 m ρ c (Proc.devRef .tc Cert.KernelIdeal.main_v33), Cert.KernelIdeal.KRun.run_main m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, (hagree c).1, (hagree c).2.1, (hagree c).2.2.1, (hagree c).2.2.2.1,
    (hagree c).2.2.2.2.1, (hagree c).2.2.2.2.2.1, (hagree c).2.2.2.2.2.2]
  obtain ⟨h0, h3, h4, h5, h6⟩ := Cert.FiniteInputs.reals_of_pre _ _ _ _ _ _ _ (hpre c)
  refine funext fun (i : Cert.ReferenceIdeal.S100000x64.Idx) => ?_
  obtain ⟨n, j, rfl⟩ : ∃ (n : Fin 100000) (j : Fin 64), i = ix2 n j := ⟨i 0, i 1, eq_ix2 i⟩
  have hdpe : Cert.ReferenceIdeal.RefValue.dpOf (m ((c.tc : Thread Cert.KernelIdeal.nD Cert.KernelIdeal.τ).loc Cert.KernelIdeal.main_arg2)) = Cert.KernelIdeal.KernelValue.dpK m c :=
    funext (Cert.Proof.Agree.dp_agree m c)
  have hdp : ∀ n, ∃ d : ℝ, 0 < d ∧ Cert.KernelIdeal.KernelValue.dpK m c n = (d : EReal) := fun n => by
    rw [← Cert.Proof.Agree.dp_agree m c n]; exact Cert.ReferenceIdeal.RefValue.dpOf_pos _ n
  refine (Cert.ReferenceIdeal.RefValue.ref_apply _ _ _ _ _ _ _ n j).trans ?_
  rw [Cert.Proof.Agree.sidx_agree m c, Cert.Proof.Agree.didx_agree m c, hdpe]
  refine Eq.trans ?_ (Cert.KernelIdeal.KernelValue.kernel_apply m ρ c n j).symm
  exact Cert.Sage.outR_eq_outK _ _ _ _ _ _ _ _ (fun n i => h0 _) (fun i k => h3 _) (fun k => h4 _) (fun k j => h5 _) hdp n j

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
